-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S8192x128 .f32) (main_arg1 : FVec F S8192x128 .f32) (main_arg2 : FVec F S8192x8192 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  main_v13
-- ==== Kernel.lean ====
abbrev S8192x128 : Shape := ⟨2, ![8192, 128]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S8192x8 : Shape := ⟨2, ![8192, 8]⟩
abbrev S1x8192 : Shape := ⟨2, ![1, 8192]⟩
abbrev S8x8192 : Shape := ⟨2, ![8, 8192]⟩
abbrev S8x8x128 : Shape := ⟨3, ![8, 8, 128]⟩
abbrev S1024x128 : Shape := ⟨2, ![1024, 128]⟩
abbrev S1024x8 : Shape := ⟨2, ![1024, 8]⟩
abbrev S8x1024 : Shape := ⟨2, ![8, 1024]⟩
abbrev S1024x1024 : Shape := ⟨2, ![1024, 1024]⟩
abbrev S1x8x128 : Shape := ⟨3, ![1, 8, 128]⟩
abbrev S1x1 : Shape := ⟨2, ![1, 1]⟩
abbrev S1024x1 : Shape := ⟨2, ![1024, 1]⟩
abbrev S1x1024 : Shape := ⟨2, ![1, 1024]⟩
abbrev S1024 : Shape := ⟨1, ![1024]⟩
abbrev S1 : Shape := ⟨1, ![1]⟩
abbrev S8x1x1 : Shape := ⟨3, ![8, 1, 1]⟩
abbrev S8 : Shape := ⟨1, ![8]⟩

abbrev nBuf : Space → Nat
  | .hbm => 40
  | .vmem => 16
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x8192, .f32⟩
  | .hbm, ⟨3, _⟩ => ⟨S8192x128, .f32⟩
  | .hbm, ⟨4, _⟩ => ⟨S8192x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8192x128, .f32⟩
  | .hbm, ⟨11, _⟩ => ⟨S8192x128, .f32⟩
  | .hbm, ⟨12, _⟩ => ⟨S8192x128, .bf16⟩
  | .hbm, ⟨13, _⟩ => ⟨S8192x128, .f32⟩
  | .hbm, ⟨14, _⟩ => ⟨S8192x128, .f32⟩
  | .hbm, ⟨15, _⟩ => ⟨S_, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S8192x1, .f32⟩
  | .hbm, ⟨21, _⟩ => ⟨S8192x8, .f32⟩
  | .hbm, ⟨22, _⟩ => ⟨S1x8192, .f32⟩
  | .hbm, ⟨23, _⟩ => ⟨S8x8192, .f32⟩
  | .hbm, ⟨24, _⟩ => ⟨S8x8x128, .f32⟩
  | .hbm, ⟨25, _⟩ => ⟨S8x8x128, .f32⟩
  | .hbm, ⟨26, _⟩ => ⟨S8x1x1, .f32⟩
  | .hbm, ⟨27, _⟩ => ⟨S8, .f32⟩
  | .hbm, ⟨28, _⟩ => ⟨S_, .f32⟩
  | .hbm, ⟨29, _⟩ => ⟨S_, .f32⟩
  | .hbm, ⟨30, _⟩ => ⟨S8x1x1, .f32⟩
  | .hbm, ⟨31, _⟩ => ⟨S8, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x8, .f32⟩
  | .local _ .vmem, ⟨5, _⟩ => ⟨S1024x8, .f32⟩
  | .local _ .vmem, ⟨6, _⟩ => ⟨S8x1024, .f32⟩
  | .local _ .vmem, ⟨7, _⟩ => ⟨S8x1024, .f32⟩
  | .local _ .vmem, ⟨8, _⟩ => ⟨S1024x1024, .f32⟩
  | .local _ .vmem, ⟨9, _⟩ => ⟨S1024x1024, .f32⟩
  | .local _ .vmem, ⟨10, _⟩ => ⟨S1x8x128, .f32⟩
  | .local _ .vmem, ⟨11, _⟩ => ⟨S1x8x128, .f32⟩
  | .local _ .vmem, ⟨12, _⟩ => ⟨S1x8x128, .f32⟩
  | .local _ .vmem, ⟨13, _⟩ => ⟨S1x8x128, .f32⟩
  | .local _ .vmem, ⟨14, _⟩ => ⟨S1x1, .f32⟩
  | .local _ .vmem, ⟨15, _⟩ => ⟨S1x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v39 : BitVec 1 := Scalar.cmpi .eq arg1 c7_i32
  let v40 : BitVec 32 := Scalar.extui v39
  let c0_i32_24 : BitVec 32 := 0#32
  let v41 : BitVec 1 := Scalar.cmpi .ne v40 c0_i32_24
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  reducesTo_S8192x128_S_d0_1 : S8192x128.ReducesTo [0, 1] S_
  h_S_ : 0 < S_.numel
  bcast_S_S8192x128 : S_.BroadcastsInDim S8192x128 (![] : Fin 0 → Fin S8192x128.rank)
  bitsLt_bf16_f32 : FTy.bits .bf16 < FTy.bits .f32
  reducesTo_S8192x128_S8192_d1 : S8192x128.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8_0_1 : S8192x1.BroadcastsInDim S8192x8 (![0, 1] : Fin 2 → Fin S8192x8.rank)
  bcast_S8192_S1x8192_1 : S8192.BroadcastsInDim S1x8192 (![1] : Fin 1 → Fin S1x8192.rank)
  bcast_S1x8192_S8x8192_0_1 : S1x8192.BroadcastsInDim S8x8192 (![0, 1] : Fin 2 → Fin S8x8192.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x8_S1024x1_0_0 : ∀ a, (![0, 0] : Fin 2 → Nat) a + S1024x1.size a ≤ S1024x8.size a
  h_S1024x1 : 0 < S1024x1.numel
  shapeCasts_S1024x1_S1024x1 : S1024x1.ShapeCasts S1024x1
  inb_S8x1024_S1x1024_0_0 : ∀ a, (![0, 0] : Fin 2 → Nat) a + S1x1024.size a ≤ S8x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  inpos_S1x1_p0_0 : ∀ a, (![0, 0] : Fin 2 → Nat) a < S1x1.size a
  inb_S1x8x128_S1x8x128_0_0_0 : ∀ a, (![0, 0, 0] : Fin 3 → Nat) a + S1x8x128.size a ≤ S1x8x128.size a
  h_S1x8x128 : 0 < S1x8x128.numel
  slices_S8x8x128_S8x1x1_0_0_0 : S8x8x128.Slices ![0, 0, 0] S8x1x1
  shapeCasts_S8x1x1_S8 : S8x1x1.ShapeCasts S8
  reducesTo_S8_S_d0 : S8.ReducesTo [0] S_
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .bf16 = 32 ∨ (Rect.block (s := S8192x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x8.size a ≤ S8192x8.size a
  hwx0_2 : ∀ i : grid0.Coords, EltTy.bits .f32 = 32 ∨ (Rect.block (s := S8192x8) S1024x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S8x8192.size a
  hwx0_3 : ∀ i : grid0.Coords, EltTy.bits .f32 = 32 ∨ (Rect.block (s := S8x8192) S8x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .f32 = 32 ∨ (Rect.block (s := S8192x8192) S1024x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S8x8x128.size a
  hwx0_5 : ∀ i : grid0.Coords, EltTy.bits .f32 = 32 ∨ (Rect.block (s := S8x8x128) S1x8x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128.size a ≤ S8x8x128.size a
  hwx0_6 : ∀ i : grid0.Coords, EltTy.bits .f32 = 32 ∨ (Rect.block (s := S8x8x128) S1x8x128.size (cc0_transform_6 i) (hinb0_6 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_v6) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1024x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S8x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1024x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16_0) S1x8x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v16_1) S1x8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S_ : Shape := ⟨0, ![]⟩
abbrev S8192 : Shape := ⟨1, ![8192]⟩
abbrev S128x8192 : Shape := ⟨2, ![128, 8192]⟩
abbrev S8192x1 : Shape := ⟨2, ![8192, 1]⟩
abbrev S1x8192 : Shape := ⟨2, ![1, 8192]⟩

abbrev nBuf : Space → Nat
  | .hbm => 42
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x8192, .f32⟩
  | .hbm, ⟨3, _⟩ => ⟨S8192x128, .f32⟩
  | .hbm, ⟨4, _⟩ => ⟨S8192x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8192x128, .f32⟩
  | .hbm, ⟨10, _⟩ => ⟨S8192x128, .f32⟩
  | .hbm, ⟨11, _⟩ => ⟨S_, .f32⟩
  | .hbm, ⟨12, _⟩ => ⟨S8192, .f32⟩
  | .hbm, ⟨13, _⟩ => ⟨S128x8192, .f32⟩
  | .hbm, ⟨14, _⟩ => ⟨S8192x8192, .f32⟩
  | .hbm, ⟨15, _⟩ => ⟨S8192x1, .f32⟩
  | .hbm, ⟨16, _⟩ => ⟨S1x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .i1⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_8 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  reducesTo_S8192x128_S_d0_1 : S8192x128.ReducesTo [0, 1] S_
  h_S_ : 0 < S_.numel
  reducesTo_S8192x128_S8192_d1 : S8192x128.ReducesTo [1] S8192
  transposes_S8192x128_S128x8192_1_0 : S8192x128.Transposes [1, 0] S128x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KBase.lean ====
/-
  The frame of the edge-loss kernel, first part: what the region finds and where its conditions hold.

  @main is a line of host operations (d = s - t scaled by 1/8, its half squared row norms laid out as a
  column array and a row array), the one kernel region on an 8 x 8 grid, and a second line of host operations
  (the two sums over the per-row-tile partial results and the final quotient). Point t of the grid is the tile
  (t / 8, t % 8): the kernel zeroes its two scalar accumulators where t % 8 = 0, adds the tile's two sums to them
  at every point, and stores them into the two output blocks where t % 8 = 7.

  Here: the arrays' contents when the region is entered (the host operations before it applied to the launch
  memory), @main reduced to the region continued by the later line, each input window's block at a point, the two
  branch conditions decided over the grid, and where the two output windows are idle or written back.
-/
import proofs.«117120_j68917045231788_2_alg».proof.Proof.Gen.Kernel.Launch
import proofs.«117120_j68917045231788_2_alg».proof.Proof.Gen.Kernel.Skeleton
import proofs.«117120_j68917045231788_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents on core c when the region is entered: the first line of host operations applied to
    the launch memory. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the second line of host operations, the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- No host operation before the region writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, decided over the grid -/

/-- "This is the first tile of its row of tiles" (the accumulators are zeroed). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last tile of its row of tiles" (the accumulators are stored into the output blocks). -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Where the last-tile condition fails the two output windows are idle and not written back; where it holds
    they are live. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

/-! ## The memrefs the body is called with -/

abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x8 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8x128 .f32 := win0_6.stage (cfg0.slots t 6)
abbrev hs0_6 (t : Fin cfg0.N) : (ms0_6 t).IsWhole := hstage0_6 ((cfg0.slots t 6).cast nbuf0_6)
/-- The two scalar accumulators: scoped buffers of the kernel's own. -/
abbrev scM0_0 : Memref sig .tc .vmem S1x1 .f32 := Memref.whole cc0_scratch0
abbrev scM0_1 : Memref sig .tc .vmem S1x1 .f32 := Memref.whole cc0_scratch1
/-- Views through which the contents of an output block and of an accumulator are stated. -/
abbrev VO0_5 : View sig .tc .vmem S1x8x128 .f32 := (Memref.whole cc0_stg5_0 : Memref sig .tc .vmem S1x8x128 .f32).view
abbrev VO0_6 : View sig .tc .vmem S1x8x128 .f32 := (Memref.whole cc0_stg6_0 : Memref sig .tc .vmem S1x8x128 .f32).view
abbrev VS0_0 : View sig .tc .vmem S1x1 .f32 := scM0_0.view
abbrev VS0_1 : View sig .tc .vmem S1x1 .f32 := scM0_1.view

/-- The class invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.KRunB.lean ====
/-
  The edge-loss kernel's body run whole, at a tile that is neither first nor last of its row of tiles: from the input blocks, the two
  output buffers and the two scalar accumulators on whole staging memrefs to the same with the body's stores
  written, as lists of pieces the run finds.
-/
import proofs.«117120_j68917045231788_2_alg».proof.Proof.KBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Neither condition holds: the accumulators are carried (`xs0`, `xs1`: what the point before left) and added to;
    the two output buffers are handed back untouched. -/
noncomputable def kernelRun0_B (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x8 .f32) (harg4 : arg4.IsWhole) (arg5 : Memref sig .tc .vmem S8x1024 .f32) (harg5 : arg5.IsWhole) (arg6 : Memref sig .tc .vmem S1024x1024 .f32) (harg6 : arg6.IsWhole) (arg7 : Memref sig .tc .vmem S1x8x128 .f32) (harg7 : arg7.IsWhole) (arg8 : Memref sig .tc .vmem S1x8x128 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i)
    (x0 : Vec F S1024x128 .bf16) (x1 : Vec F S1024x128 .bf16) (x2 : Vec F S1024x8 .f32) (x3 : Vec F S8x1024 .f32) (x4 : Vec F S1024x1024 .f32) (xs0 xs1 : Vec F S1x1 .f32) :
    Σ' (L5 : List (View.Piece (Elt F) S1x8x128 .f32)) (L6 : List (View.Piece (Elt F) S1x8x128 .f32)) (LS0 : List (View.Piece (Elt F) S1x1 .f32)), { LS1 : List (View.Piece (Elt F) S1x1 .f32) //
      ∀ (xi5 xi6 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__edge_kernel i arg2 harg2 arg3 harg3 arg4 harg4 arg5 harg5 arg6 harg6 arg7 harg7 arg8 harg8 arg9 harg9 arg10 harg10) K } := by
  refine ⟨[], [], ?_, ?_, fun xi5 xi6 E K => ?run⟩
  case run =>
    simp only [cc0__edge_kernel_eq_skeleton]; unfold cc0__edge_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hf6
    obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Hand

end
-- ==== Proof.KRunA.lean ====
/-
  The edge-loss kernel's body run whole, at the first tile of a row of tiles: from the input blocks, the two
  output buffers and the two scalar accumulators on whole staging memrefs to the same with the body's stores
  written, as lists of pieces the run finds.
-/
import proofs.«117120_j68917045231788_2_alg».proof.Proof.KRunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The first-tile condition holds, the last-tile one does not: the accumulators are zeroed first (whatever they
    held), then added to; the two output buffers are handed back untouched. -/
noncomputable def kernelRun0_A (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x8 .f32) (harg4 : arg4.IsWhole) (arg5 : Memref sig .tc .vmem S8x1024 .f32) (harg5 : arg5.IsWhole) (arg6 : Memref sig .tc .vmem S1024x1024 .f32) (harg6 : arg6.IsWhole) (arg7 : Memref sig .tc .vmem S1x8x128 .f32) (harg7 : arg7.IsWhole) (arg8 : Memref sig .tc .vmem S1x8x128 .f32) (harg8 : arg8.IsWhole) (arg9 : Memref sig .tc .vmem S1x1 .f32) (harg9 : arg9.IsWhole) (arg10 : Memref sig .tc .vmem S1x1 .f32) (harg10 : arg10.IsWhole) (hc0 : cond0_0 i) (hc1 : ¬cond0_1 i)
    (x0 : Vec F S1024x128 .bf16) (x1 : Vec F S1024x128 .bf16) (x2 : Vec F S1024x8 .f32) (x3 : Vec F S8x1024 .f32) (x4 : Vec F S1024x1024 .f32) :
    Σ' (L5 : List (View.Piece (Elt F) S1x8x128 .f32)) (L6 : List (View.Piece (Elt F) S1x8x128 .f32)) (LS0 : List (View.Piece (Elt F) S1x1 .f32)), { LS1 : List (View.Piece (Elt F) S1x1 .f32) //
      ∀ (xi5 xi6 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__edge_kernel i arg2 harg2 arg3 harg3 arg4 harg4 arg5 harg5 arg6 harg6 arg7 harg7 arg8 harg8 arg9 harg9 arg10 harg10) K } := by
  refine ⟨[], [], ?_, ?_, fun xi5 xi6 E K => ?run⟩
  case run =>
    simp only [cc0__edge_kernel_eq_skeleton]; unfold cc0__edge_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Hand

end
-- ==== Proof.KRunC.lean ====
/-
  The edge-loss kernel's body run whole, at the last tile of a row of tiles: from the input blocks, the two
  output buffers and the two scalar accumulators on whole staging memrefs to the same with the body's stores
  written, as lists of pieces the run finds.
-/
import proofs.«117120_j68917045231788_2_alg».proof.Proof.KRunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The last-tile condition holds, the first-tile one does not: the accumulators are carried and added to, then
    each is spread over its output block, whatever the block's buffer held. -/
noncomputable def kernelRun0_C (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x8 .f32) (harg4 : arg4.IsWhole) (arg5 : Memref sig .tc .vmem S8x1024 .f32) (harg5 : arg5.IsWhole) (arg6 : Memref sig .tc .vmem S1024x1024 .f32) (harg6 : arg6.IsWhole) (arg7 : Memref sig .tc .vmem S1x8x128 .f32) (harg7 : arg7.IsWhole) (arg8 : Memref sig .tc .vmem S1x8x128 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i)
    (x0 : Vec F S1024x128 .bf16) (x1 : Vec F S1024x128 .bf16) (x2 : Vec F S1024x8 .f32) (x3 : Vec F S8x1024 .f32) (x4 : Vec F S1024x1024 .f32) (xs0 xs1 : Vec F S1x1 .f32) :
    Σ' (L5 : List (View.Piece (Elt F) S1x8x128 .f32)) (L6 : List (View.Piece (Elt F) S1x8x128 .f32)) (LS0 : List (View.Piece (Elt F) S1x1 .f32)), { LS1 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__edge_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__edge_kernel_eq_skeleton]; unfold cc0__edge_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4
    obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]; · iexists _; iexact HS0
    iexists _; iexact HS1

end Cert.Kernel.Hand

end
-- ==== Proof.KFrame.lean ====
/-
  The frame of the edge-loss kernel, second part: what the two accumulators and the two output buffers hold
  after each grid point, the proof data of the pipeline, the body obligation, and the run of @main.

  The accumulators are carried from point to point within a row of tiles: zeroed at its first tile, added to at
  every tile, spread over the output blocks at its last. What they hold after point t is therefore defined by
  recursion on t (`outsAt0`), and the region invariant before point t + 1 holds them at exactly that.

  One array, the scaled difference d / 8, stands behind TWO input windows (the row block and the column block of
  a tile). The launch hands the pipeline each array whole at the full share; the proof data splits that array's
  share in two halves, one per window, and the two halves are only ever read.
-/
import proofs.«117120_j68917045231788_2_alg».proof.Proof.KRunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's run at a grid point, case by case -/

/-- The run of the first-tile case at point t, on the memrefs and input blocks of that point. -/
abbrev runA (c : Dev nD) (t : Fin cfg0.N) (hc0 : cond0_0 (grid0.coords t)) (hc1 : ¬cond0_1 (grid0.coords t)) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 (iblk m c 0 t) (iblk m c 1 t) (iblk m c 2 t) (iblk m c 3 t) (iblk m c 4 t)
/-- The run of the middle case at point t, the accumulators at `xs0`, `xs1`. -/
abbrev runB (c : Dev nD) (t : Fin cfg0.N) (hc0 : ¬cond0_0 (grid0.coords t)) (hc1 : ¬cond0_1 (grid0.coords t)) (xs0 xs1 : Vec F S1x1 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 (iblk m c 0 t) (iblk m c 1 t) (iblk m c 2 t) (iblk m c 3 t) (iblk m c 4 t) xs0 xs1
/-- The run of the last-tile case at point t, the accumulators at `xs0`, `xs1`. -/
abbrev runC (c : Dev nD) (t : Fin cfg0.N) (hc0 : ¬cond0_0 (grid0.coords t)) (hc1 : cond0_1 (grid0.coords t)) (xs0 xs1 : Vec F S1x1 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 (iblk m c 0 t) (iblk m c 1 t) (iblk m c 2 t) (iblk m c 3 t) (iblk m c 4 t) xs0 xs1

/-- What a list of pieces leaves in an accumulator, and in an output buffer: the pieces read back. -/
def readS0 (L : List (View.Piece (Elt F) S1x1 .f32)) : Vec F S1x1 .f32 := VS0_0.read (Elt F) (VS0_0.writes (Elt F) VS0_0.junk L)
def readS1 (L : List (View.Piece (Elt F) S1x1 .f32)) : Vec F S1x1 .f32 := VS0_1.read (Elt F) (VS0_1.writes (Elt F) VS0_1.junk L)
def readO5 (L : List (View.Piece (Elt F) S1x8x128 .f32)) : Vec F S1x8x128 .f32 := VO0_5.read (Elt F) (VO0_5.writes (Elt F) VO0_5.junk L)
def readO6 (L : List (View.Piece (Elt F) S1x8x128 .f32)) : Vec F S1x8x128 .f32 := VO0_6.read (Elt F) (VO0_6.writes (Elt F) VO0_6.junk L)

/-- Each case's pieces for each accumulator cover it; the last-tile case's pieces for each output cover it. -/
theorem scoverA0 (c : Dev nD) (t : Fin cfg0.N) (hc0 : cond0_0 (grid0.coords t)) (hc1 : ¬cond0_1 (grid0.coords t)) (y : S1x1.Idx) : ∃ pc ∈ (runA m c t hc0 hc1).2.2.1, y ∈ pc.1.set :=
  View.cover_of_tiledL (runA m c t hc0 hc1).2.2.1 S1x1.size (by sl_kernel_rfl) y
theorem scoverA1 (c : Dev nD) (t : Fin cfg0.N) (hc0 : cond0_0 (grid0.coords t)) (hc1 : ¬cond0_1 (grid0.coords t)) (y : S1x1.Idx) : ∃ pc ∈ (runA m c t hc0 hc1).2.2.2.1, y ∈ pc.1.set :=
  View.cover_of_tiledL (runA m c t hc0 hc1).2.2.2.1 S1x1.size (by sl_kernel_rfl) y
theorem scoverB0 (c : Dev nD) (t : Fin cfg0.N) (hc0 : ¬cond0_0 (grid0.coords t)) (hc1 : ¬cond0_1 (grid0.coords t)) (xs0 xs1) (y : S1x1.Idx) : ∃ pc ∈ (runB m c t hc0 hc1 xs0 xs1).2.2.1, y ∈ pc.1.set :=
  View.cover_of_tiledL (runB m c t hc0 hc1 xs0 xs1).2.2.1 S1x1.size (by sl_kernel_rfl) y
theorem scoverB1 (c : Dev nD) (t : Fin cfg0.N) (hc0 : ¬cond0_0 (grid0.coords t)) (hc1 : ¬cond0_1 (grid0.coords t)) (xs0 xs1) (y : S1x1.Idx) : ∃ pc ∈ (runB m c t hc0 hc1 xs0 xs1).2.2.2.1, y ∈ pc.1.set :=
  View.cover_of_tiledL (runB m c t hc0 hc1 xs0 xs1).2.2.2.1 S1x1.size (by sl_kernel_rfl) y
theorem scoverC0 (c : Dev nD) (t : Fin cfg0.N) (hc0 : ¬cond0_0 (grid0.coords t)) (hc1 : cond0_1 (grid0.coords t)) (xs0 xs1) (y : S1x1.Idx) : ∃ pc ∈ (runC m c t hc0 hc1 xs0 xs1).2.2.1, y ∈ pc.1.set :=
  View.cover_of_tiledL (runC m c t hc0 hc1 xs0 xs1).2.2.1 S1x1.size (by sl_kernel_rfl) y
theorem scoverC1 (c : Dev nD) (t : Fin cfg0.N) (hc0 : ¬cond0_0 (grid0.coords t)) (hc1 : cond0_1 (grid0.coords t)) (xs0 xs1) (y : S1x1.Idx) : ∃ pc ∈ (runC m c t hc0 hc1 xs0 xs1).2.2.2.1, y ∈ pc.1.set :=
  View.cover_of_tiledL (runC m c t hc0 hc1 xs0 xs1).2.2.2.1 S1x1.size (by sl_kernel_rfl) y
theorem coverC5 (c : Dev nD) (t : Fin cfg0.N) (hc0 : ¬cond0_0 (grid0.coords t)) (hc1 : cond0_1 (grid0.coords t)) (xs0 xs1) (y : S1x8x128.Idx) : ∃ pc ∈ (runC m c t hc0 hc1 xs0 xs1).1, y ∈ pc.1.set :=
  View.cover_of_tiledL (runC m c t hc0 hc1 xs0 xs1).1 S1x8x128.size (by sl_kernel_rfl) y
theorem coverC6 (c : Dev nD) (t : Fin cfg0.N) (hc0 : ¬cond0_0 (grid0.coords t)) (hc1 : cond0_1 (grid0.coords t)) (xs0 xs1) (y : S1x8x128.Idx) : ∃ pc ∈ (runC m c t hc0 hc1 xs0 xs1).2.1, y ∈ pc.1.set :=
  View.cover_of_tiledL (runC m c t hc0 hc1 xs0 xs1).2.1 S1x8x128.size (by sl_kernel_rfl) y

/-! ## What the outputs and the accumulators hold after each point -/

/-- The four buffers after the body at one point: output 5, output 6, accumulator 0, accumulator 1. -/
abbrev Outs (F : FTy → Type) := Vec F S1x8x128 .f32 × Vec F S1x8x128 .f32 × Vec F S1x1 .f32 × Vec F S1x1 .f32

/-- Each case's four buffers from its run (an idle output's entry is a placeholder nothing consults). -/
def outsA (c : Dev nD) (t : Fin cfg0.N) (hc0 : cond0_0 (grid0.coords t)) (hc1 : ¬cond0_1 (grid0.coords t)) : Outs F :=
  (readO5 (runA m c t hc0 hc1).1, readO6 (runA m c t hc0 hc1).2.1, readS0 (runA m c t hc0 hc1).2.2.1, readS1 (runA m c t hc0 hc1).2.2.2.1)
def outsB (c : Dev nD) (t : Fin cfg0.N) (hc0 : ¬cond0_0 (grid0.coords t)) (hc1 : ¬cond0_1 (grid0.coords t)) (xs0 xs1 : Vec F S1x1 .f32) : Outs F :=
  (readO5 (runB m c t hc0 hc1 xs0 xs1).1, readO6 (runB m c t hc0 hc1 xs0 xs1).2.1, readS0 (runB m c t hc0 hc1 xs0 xs1).2.2.1, readS1 (runB m c t hc0 hc1 xs0 xs1).2.2.2.1)
def outsC (c : Dev nD) (t : Fin cfg0.N) (hc0 : ¬cond0_0 (grid0.coords t)) (hc1 : cond0_1 (grid0.coords t)) (xs0 xs1 : Vec F S1x1 .f32) : Outs F :=
  (readO5 (runC m c t hc0 hc1 xs0 xs1).1, readO6 (runC m c t hc0 hc1 xs0 xs1).2.1, readS0 (runC m c t hc0 hc1 xs0 xs1).2.2.1, readS1 (runC m c t hc0 hc1 xs0 xs1).2.2.2.1)

/-- THE ACCUMULATION: the four buffers after the body at position n, by recursion on n — the case the closed forms
    select at n, run at that point, the accumulators taken from what position n - 1 left. -/
def outsAt0 (c : Dev nD) : (n : ℕ) → n < cfg0.N → Outs F
  | 0, hn => outsA m c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 8 = 0 then
      if h1 : (n + 1) % 8 = 7 then False.elim (by omega)
      else outsA m c ⟨n + 1, hn⟩ ((hcond0_0 ⟨n + 1, hn⟩).mpr h0) (fun h => h1 ((hcond0_1 ⟨n + 1, hn⟩).mp h))
    else
      if h1 : (n + 1) % 8 = 7 then
        outsC m c ⟨n + 1, hn⟩ (fun h => h0 ((hcond0_0 ⟨n + 1, hn⟩).mp h)) ((hcond0_1 ⟨n + 1, hn⟩).mpr h1)
          (outsAt0 c n (Nat.lt_of_succ_lt hn)).2.2.1 (outsAt0 c n (Nat.lt_of_succ_lt hn)).2.2.2
      else
        outsB m c ⟨n + 1, hn⟩ (fun h => h0 ((hcond0_0 ⟨n + 1, hn⟩).mp h)) (fun h => h1 ((hcond0_1 ⟨n + 1, hn⟩).mp h))
          (outsAt0 c n (Nat.lt_of_succ_lt hn)).2.2.1 (outsAt0 c n (Nat.lt_of_succ_lt hn)).2.2.2

theorem outsAt0_A (c : Dev nD) (t : Fin cfg0.N) (h0 : t.val % 8 = 0) (h1 : ¬t.val % 8 = 7) :
    outsAt0 m c t.val t.isLt = outsA m c t ((hcond0_0 t).mpr h0) (fun h => h1 ((hcond0_1 t).mp h)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = outsB m c t (fun h => h0 ((hcond0_0 t).mp h)) (fun h => h1 ((hcond0_1 t).mp h))
      (outsAt0 m c (t.val - 1) (Nat.lt_of_le_of_lt (Nat.sub_le _ _) t.isLt)).2.2.1 (outsAt0 m c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = outsC m c t (fun h => h0 ((hcond0_0 t).mp h)) ((hcond0_1 t).mpr h1)
      (outsAt0 m c (t.val - 1) (Nat.lt_of_le_of_lt (Nat.sub_le _ _) t.isLt)).2.2.1 (outsAt0 m c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point the class's (every scratch at anything);
    afterwards the two accumulators at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The proof data on core c: the arrays as the region finds them; after the body each input's buffer at its block,
    the two outputs' at `outsAt0`; the invariant `PhiS`; nothing owed; the array behind windows 0 and 1 held in two
    halves, one per window, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point. The inputs' memrefs hold their blocks; the closed forms say which case the point is in;
    the invariant hands the body the accumulators at what the point before left (at anything before the first
    point) and takes them back at this point's contents; an output the case does not store into is handed back as it
    was found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  by_cases h0 : t.val % 8 = 0
  · have h1 : ¬t.val % 8 = 7 := by omega
    rw [Dat.leavesExact_idle (dats m 0 c) 5 t (idleAt0_5 t (fun h => h1 ((hcond0_1 t).mp h))) (noFlush0_5 t (fun h => h1 ((hcond0_1 t).mp h)))]
    rw [Dat.leavesExact_idle (dats m 0 c) 6 t (idleAt0_6 t (fun h => h1 ((hcond0_1 t).mp h))) (noFlush0_6 t (fun h => h1 ((hcond0_1 t).mp h)))]
    rw [outsAt0_A m c t h0 h1]
    unfold outsA readS0 readS1; (try dsimp only)
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((runA m c t ((hcond0_0 t).mpr h0) (fun h => h1 ((hcond0_1 t).mp h))).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverA0 m c t _ _)
          · unfold owns; iexists _; isplitr
            swap; · iexact HS1
            ipureintro; exact View.read_writes_of_cover _ _ _ _ _ (scoverA1 m c t _ _)
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((runA m c t ((hcond0_0 t).mpr h0) (fun h => h1 ((hcond0_1 t).mp h))).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      iintro ⟨H0, H1, H2, H3, H4, H5, H6, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverA0 m c t _ _)
          · unfold owns; iexists _; isplitr
            swap; · iexact HS1
            ipureintro; exact View.read_writes_of_cover _ _ _ _ _ (scoverA1 m c t _ _)
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
  · by_cases h1 : t.val % 8 = 7
    · rw [show (dats m 0 c).leavesExact 5 t = owns (c : Thread nD τ) (ms0_5 t) fullShare ((dats m 0 c).after 5 t) from by
        unfold Dat.leavesExact; rw [liveAt0_5 t ((hcond0_1 t).mpr h1)], after0_5]
      rw [show (dats m 0 c).leavesExact 6 t = owns (c : Thread nD τ) (ms0_6 t) fullShare ((dats m 0 c).after 6 t) from by
        unfold Dat.leavesExact; rw [liveAt0_6 t ((hcond0_1 t).mpr h1)], after0_6]
      rw [outsAt0_C m c t h0 h1]
      unfold outsC readO5 readO6 readS0 readS1; (try dsimp only)
      have hz : t.val ≠ 0 := by omega
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((runC m c t (fun h => h0 ((hcond0_0 t).mp h)) ((hcond0_1 t).mpr h1) _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, ⟨%e5, H5⟩, ⟨%e6, H6⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverC0 m c t _ _ _ _)
          · unfold owns; iexists _; isplitr
            swap; · iexact HS1
            ipureintro; exact View.read_writes_of_cover _ _ _ _ _ (scoverC1 m c t _ _ _ _)
        · iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (coverC5 m c t _ _ _ _)
      unfold owns; iexists _; isplitr
      swap; · iexact H6
      ipureintro; exact View.read_writes_of_cover _ _ _ _ _ (coverC6 m c t _ _ _ _)
    · have hz : t.val ≠ 0 := by omega
      rw [Dat.leavesExact_idle (dats m 0 c) 5 t (idleAt0_5 t (fun h => h1 ((hcond0_1 t).mp h))) (noFlush0_5 t (fun h => h1 ((hcond0_1 t).mp h)))]
      rw [Dat.leavesExact_idle (dats m 0 c) 6 t (idleAt0_6 t (fun h => h1 ((hcond0_1 t).mp h))) (noFlush0_6 t (fun h => h1 ((hcond0_1 t).mp h)))]
      rw [outsAt0_B m c t h0 h1]
      unfold outsB readS0 readS1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((runB m c t (fun h => h0 ((hcond0_0 t).mp h)) (fun h => h1 ((hcond0_1 t).mp h)) _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverB0 m c t _ _ _ _)
          · unfold owns; iexists _; isplitr
            swap; · iexact HS1
            ipureintro; exact View.read_writes_of_cover _ _ _ _ _ (scoverB1 m c t _ _ _ _)
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the accumulators' contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 64 := N_0; omega)

end Cert.Kernel.Hand

end
-- ==== Proof.KLaunch.lean ====
/-
  The frame of the edge-loss kernel, third part: the launch.

  The pipeline's seven windows stand on six arrays: the scaled difference d / 8 is handed to the kernel twice, as
  the row block and as the column block of a tile. The launch theorem for windows that may share arrays asks how
  the buffers behind the arrays, each whole, make the proof data's arrays: the shared array's points-to splits
  into its two half shares, one per window (both windows only read it), and every other array is its window's
  (`arrays_of_bufs`, an equivalence: at the region's exit the two halves, holding the same unchanged contents,
  join back). After the region @main goes on with a line of host operations that reads the two output arrays and
  writes fresh scalars: at the exit the arrays and the bypassing buffers are again every unscoped buffer, whole, so
  the line runs as the line before the region does (`htail`). From the run: the frame claim, at any float
  instance.
-/
import proofs.«117120_j68917045231788_2_alg».proof.Proof.KFrame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shares, and the arrays from the buffers behind them -/

theorem share0_0 (c : Dev nD) : (dats m 0 c).share (0 : Fin 7) = fullShare.left := by
  unfold Dat.share; rw [if_neg (by decide)]; dsimp only [dats]
theorem share0_1 (c : Dev nD) : (dats m 0 c).share (1 : Fin 7) = fullShare.right := by
  unfold Dat.share; rw [if_neg (by decide)]; dsimp only [dats]
theorem share0_2 (c : Dev nD) : (dats m 0 c).share (2 : Fin 7) = fullShare := by
  unfold Dat.share; rw [if_neg (by decide)]; dsimp only [dats]
theorem share0_3 (c : Dev nD) : (dats m 0 c).share (3 : Fin 7) = fullShare := by
  unfold Dat.share; rw [if_neg (by decide)]; dsimp only [dats]
theorem share0_4 (c : Dev nD) : (dats m 0 c).share (4 : Fin 7) = fullShare := by
  unfold Dat.share; rw [if_neg (by decide)]; dsimp only [dats]
theorem share0_5 (c : Dev nD) : (dats m 0 c).share (5 : Fin 7) = fullShare := by
  unfold Dat.share; rw [if_pos (by decide)]
theorem share0_6 (c : Dev nD) : (dats m 0 c).share (6 : Fin 7) = fullShare := by
  unfold Dat.share; rw [if_pos (by decide)]

/-- The distinct buffers behind the seven windows' arrays, conjoined one by one (the array behind windows 0 and 1
    appears once). -/
theorem bigSep_arrs {M : Type} [URA M] (Φ : Ref sig .tc → sProp M) :
    bigSep (Finset.univ.image (Pipeline.arrRef spec0)) Φ
      = iprop(Φ main_v6 ∗ Φ main_v13 ∗ Φ main_v15 ∗ Φ main_arg2 ∗ Φ main_v16_0 ∗ Φ main_v16_1) :=
  bigSep_eq_bigSepL_of_eq [main_v6, main_v13, main_v15, main_arg2, main_v16_0, main_v16_1] (by decide) (by decide) Φ

set_option maxHeartbeats 2000000 in
/-- The buffers behind the windows' arrays, each whole at the full share at contents W, ARE the proof data's
    arrays at any contents that agree with W: the one array behind windows 0 and 1 splits into its two halves
    (and the halves, holding the same contents, join back); every other array is its window's. -/
theorem arrays_of_bufs (c : Dev nD) (W : (b : Ref sig .tc) → Buf (Elt F) ((c.tc : Thread nD τ).loc b))
    (Fw : (w : Fin cfg0.W) → Buf (Elt F) ((cfg0.win w).arr.view.loc (c.tc : Thread nD τ))) (hF : ∀ w, Fw w = W (Pipeline.arrRef spec0 w)) :
    (Pipeline.arrBufs spec0 c W : sProp 𝕄) ⊣⊢ (dats m 0 c).arrays Fw := by
  unfold Pipeline.arrBufs Dat.arrays
  rw [bigSep_W0, bigSep_arrs]
  rw [hF 0, hF 1, hF 2, hF 3, hF 4, hF 5, hF 6]
  simp only [View.set_whole]
  refine ⟨?_, ?_⟩
  · iintro ⟨H6, H13, H15, H2, Ho0, Ho1⟩
    ihave Hs := (pointsTo_share (PosShare.mem_left_op_right fullShare)).1 $$ H6
    icases Hs with ⟨Hl, Hr⟩
    isplitl [Hl]; · rw [share0_0]; iexact Hl
    isplitl [Hr]; · rw [share0_1]; iexact Hr
    isplitl [H13]; · rw [share0_2]; iexact H13
    isplitl [H15]; · rw [share0_3]; iexact H15
    isplitl [H2]; · rw [share0_4]; iexact H2
    isplitl [Ho0]; · rw [share0_5]; iexact Ho0
    rw [share0_6]; iexact Ho1
  · rw [share0_0, share0_1]
    iintro ⟨Hl, Hr, H13, H15, H2, Ho0, Ho1⟩
    isplitl [Hl Hr]
    · iapply (pointsTo_share (PosShare.mem_left_op_right fullShare)).2
      isplitl [Hl]; · iexact Hl
      iexact Hr
    isplitl [H13]; · rw [share0_2]; iexact H13
    isplitl [H15]; · rw [share0_3]; iexact H15
    isplitl [H2]; · rw [share0_4]; iexact H2
    isplitl [Ho0]; · rw [share0_5]; iexact Ho0
    rw [share0_6]; iexact Ho1

/-! ## The region's exit and the line of host operations after it -/

/-- An input window's array is never written: it ends as the region found it. -/
theorem arrAt_in0 (c : Dev nD) (w : Fin cfg0.W) (hin : (cfg0.win w).isOut = false) (n : ℕ) :
    (dats m 0 c).arrAt w n = V m c (Pipeline.arrRef spec0 w) :=
  ((dats m 0 c).arrAt_in w hin n).trans (A_eq m c w)

/-- The buffers' contents when the region is left: each window's array at its final contents, every other buffer as
    the region found it. -/
abbrev Wx (c : Dev nD) : Valuation τ sig (Elt F) :=
  Pipeline.withArrays spec0 c (V0 m c) (fun w => (dats m 0 c).arrAt w cfg0.N)

/-- Read at a window's array it is that array's final contents — also for the array two windows share, whose two
    windows end at the same (unchanged) contents. -/
theorem Wx_arr (c : Dev nD) (w : Fin cfg0.W) :
    Wx m c (Proc.devRef .tc (Pipeline.arrRef spec0 w)) = (dats m 0 c).arrAt w cfg0.N := by
  show Pipeline.withArrays spec0 c (V0 m c) (fun w => (dats m 0 c).arrAt w cfg0.N) (Proc.devRef .tc (Pipeline.arrRef spec0 w)) = _
  unfold Pipeline.withArrays
  have h : ∃ w', Proc.devRef .tc (Pipeline.arrRef spec0 w') = Proc.devRef (τ := τ) .tc (Pipeline.arrRef spec0 w) := ⟨w, rfl⟩
  rw [dif_pos h]
  suffices ∀ (w' : Fin cfg0.W) (e : Proc.devRef .tc (Pipeline.arrRef spec0 w') = Proc.devRef (τ := τ) .tc (Pipeline.arrRef spec0 w)),
      cast (congrArg (fun b' : DevRef τ sig => b'.ty.Contents (Elt F)) e) ((dats m 0 c).arrAt w' cfg0.N) = (dats m 0 c).arrAt w cfg0.N from this _ h.choose_spec
  intro w' e
  have e' : Pipeline.arrRef spec0 w' = Pipeline.arrRef spec0 w := Proc.devRef_injective _ e
  have h01 : (dats m 0 c).arrAt (0 : Fin 7) cfg0.N = (dats m 0 c).arrAt (1 : Fin 7) cfg0.N :=
    (arrAt_in0 m c 0 rfl _).trans (arrAt_in0 m c 1 rfl _).symm
  by_cases hw : w' = w
  · subst hw; exact cast_eq _ _
  · have hcases : (w' = 0 ∧ w = 1) ∨ (w' = 1 ∧ w = 0) :=
      (by decide : ∀ a b : Fin 7, Pipeline.arrRef spec0 a = Pipeline.arrRef spec0 b → a ≠ b → (a = 0 ∧ b = 1) ∨ (a = 1 ∧ b = 0)) w' w e' hw
    rcases hcases with ⟨rfl, rfl⟩ | ⟨rfl, rfl⟩
    · exact (cast_eq _ _).trans h01
    · exact (cast_eq _ _).trans h01.symm

/-- Read at a buffer that is no window's array it is the region-entry contents. -/
theorem Wx_rest (c : Dev nD) (b : Ref sig .tc) (hb : ∀ w, Pipeline.arrRef spec0 w ≠ b) :
    Wx m c (Proc.devRef .tc b) = V m c b :=
  Pipeline.withArrays_of_ne spec0 c (V0 m c) _ b hb

/-- The buffers' contents when @main returns: the second line of host operations applied at the region's exit. -/
abbrev Wf (c : Dev nD) : Valuation τ sig (Elt F) := StableHlo.after ([hostOps1] : List (List (HloOp τ sig (Elt F)))).flatten (Wx m c)

theorem sfx_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- The second line writes no array of the pipeline. -/
theorem sfx_keeps : ∀ op ∈ ([hostOps1] : List (List (HloOp τ sig (Elt F)))).flatten, ∀ w, Proc.devRef .tc (Pipeline.arrRef spec0 w) ∉ op.writes := by
  intro op hop
  simp only [hostOps1, List.flatten_cons, List.flatten_nil, List.append_nil, List.mem_cons, List.mem_nil_iff, or_false] at hop
  rcases hop with rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- At the return each window's array still holds its final contents. -/
theorem Wf_arr (c : Dev nD) (w : Fin cfg0.W) :
    Wf m c (Proc.devRef .tc (Pipeline.arrRef spec0 w)) = (dats m 0 c).arrAt w cfg0.N :=
  (StableHlo.after_of_forall_not_mem _ _ fun op hop => sfx_keeps op hop w).trans (Wx_arr m c w)

/-- What bypasses the region: every unscoped buffer that is no window's array, at the region-entry contents; and the
    same buffers when @main returns. -/
abbrev Zin (c : Dev nD) : sProp 𝕄 := Pipeline.unscopedRestP Pipeline.Prefetch.none spec0 c (V m c)
abbrev Zout (c : Dev nD) : sProp 𝕄 := Pipeline.unscopedRestP Pipeline.Prefetch.none spec0 c (fun b => Wf m c b)

set_option maxHeartbeats 2000000 in
/-- THE LINE AFTER THE REGION. At the region's exit the windows' arrays (the shared one in its two halves) and the
    bypassing buffers are together every unscoped buffer, whole, at `Wx`; the line runs within them and leaves them at
    `Wf`, where the arrays still hold their final contents and split back among the windows. -/
theorem htail (c : Dev nD) (Q' : PUnit → sProp 𝕄) :
    iprop((iprop((dats m 0 c).arrays (fun w => (dats m 0 c).arrAt w cfg0.N) ∗ Zout m c) -∗ Q' ⟨⟩)
        ∗ boundary (c.tc : Thread nD τ) ∗ (dats m 0 c).arrays (fun w => (dats m 0 c).arrAt w cfg0.N) ∗ Zin m c)
      ⊢ wp frame (wpE (Pipeline.defs (fun q => (cfgs q).toPCfg (Val := Elt F)) defs₀) (Variants.lift Variants.none) (c.tc : Thread nD τ) none) Set.univ
          (Pipeline.chain (([hostOps1] : List (List (HloOp τ sig (Elt F)))).map StableHlo.seq)) Q' := by
  have hrun := Pipeline.wp_seqs_then (Ix := Unit) (Name := ℕ) (U := UR sig nD τ) (Lvl := ℕ) (fun q => (cfgs q).toPCfg (Val := Elt F)) defs₀ Variants.none c (Pipeline.ucRefs τ sig) [] [hostOps1] sfx_sub sfx_fresh (Wx m c) (K := Q')
  rw [← Pipeline.unscopedBufs_held (Ix := Unit) (Name := ℕ) (U := UR sig nD τ) (Lvl := ℕ) c (Wx m c),
    ← Pipeline.unscopedBufs_held (Ix := Unit) (Name := ℕ) (U := UR sig nD τ) (Lvl := ℕ) c (StableHlo.after ([hostOps1] : List (List (HloOp τ sig (Elt F)))).flatten (Wx m c)),
    Pipeline.unscopedBufs_split₀ cfgs 0 winFacts₀0.arr_unscoped c, Pipeline.unscopedBufs_split₀ cfgs 0 winFacts₀0.arr_unscoped c,
    List.append_nil] at hrun
  have hZ : (Zin m c : sProp 𝕄) = Pipeline.unscopedRest spec0 c (fun b => Wx m c b) := by
    unfold Zin; rw [Pipeline.unscopedRestP_none]; unfold Pipeline.unscopedRest
    exact bigSep_congr fun b hb => by
      dsimp only
      rw [Wx_rest m c b fun w e => (Finset.mem_sdiff.mp hb).2 (Finset.mem_image.mpr ⟨w, Finset.mem_univ _, e⟩)]
  have hZ' : (Zout m c : sProp 𝕄) = Pipeline.unscopedRest spec0 c (fun b => Wf m c b) := by
    unfold Zout; rw [Pipeline.unscopedRestP_none]
  have hA := (arrays_of_bufs m c (fun b => Wx m c b) (fun w => (dats m 0 c).arrAt w cfg0.N) (fun w => (Wx_arr m c w).symm)).2
  have hA' := (arrays_of_bufs m c (fun b => Wf m c b) (fun w => (dats m 0 c).arrAt w cfg0.N) (fun w => (Wf_arr m c w).symm)).1
  rw [hZ, hZ']
  iintro ⟨Hk, Hb, HA, HZ⟩
  ihave HAb := hA $$ HA
  iapply hrun $$ [Hb HAb HZ]
  · isplitl [Hb]; · iexact Hb
    isplitl [HAb]; · iexact HAb
    iexact HZ
  iintro Hb
  rw [Pipeline.chain_nil, wp_pure]
  imodintro
  iapply Hk
  icases Hb with ⟨-, HAb, HZ⟩
  isplitl [HAb]; · iapply hA'; iexact HAb
  iexact HZ

/-! ## The run of @main -/

/-- What the run of @main ends with: every window's array at the contents the proof data computes, every other
    unscoped buffer at what the second line of host operations leaves. -/
def RunPost (r : PUnit × MemSt nD τ sig (Elt F)) : Prop :=
  ∀ c : Dev nD, (∀ w, r.2.mem ((spec0 w).arr.view.loc (c.tc : Thread nD τ)) = (dats m 0 c).arrAt w cfg0.N)
    ∧ ∀ b ∈ Pipeline.restRefsP sig Pipeline.Prefetch.none spec0, r.2.mem ((c.tc : Thread nD τ).loc b) = Wf m c b

set_option maxHeartbeats 4000000 in
set_option backward.isDefEq.respectTransparency.types false in
/-- At the compiled mesh, from any memory with zero counters: every weakly fair execution of @main terminates,
    nothing faulting, in a state satisfying `RunPost`. The launch is the library's for one region continued by host
    operations, taken by its fields: the windows' layout with the arrays NOT required distinct, the split of the
    shared array's share (`arrays_of_bufs`), the invariant entered from and returned to the class's, the line after
    the region (`htail`). -/
theorem run_main : θ_run defs (onTc (τ := τ) (main (F := F))) (s₀ m ρ) (RunPost m) :=
  Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain (([hostOps1] : List (List (HloOp τ sig (Elt F)))).map StableHlo.seq)) (fun c => (body_obligation m c).loose)
    block_pos0 arr_whole0 stage_whole0 (fun _ _ => rfl)
    (G := fun _ => iprop(emp)) (u₀ := initOf (Pipeline.cells _ cellOf_inj) (Pipeline.launchToks _ cellOf_inj))
    (hu₀ := by
      iintro Hu; imodintro
      isplitl [Hu]; · iapply (show (ownU _ : sProp 𝕄) ⊢ BI.own (emb₁ (initOf (Pipeline.cells _ cellOf_inj) (Pipeline.launchToks _ cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => (arrays_of_bufs m c (V m c) (fun w => (dats m 0 c).arrAt w 0)
      (fun w => (show (dats m 0 c).arrAt w 0 = (dats m 0 c).A w from rfl).trans (A_eq m c w))).1)
    (hpf := fun _ k => k.elim0)
    (X := fun c => iprop(∃ r, prngReg c r)) (Y := fun c => iprop(∃ r, prngReg c r))
    (Z := Zin m) (Z' := Zout m)
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => ∀ b ∈ Pipeline.restRefsP sig Pipeline.Prefetch.none spec0, s.mem ((c.tc : Thread nD τ).loc b) = Wf m c b)
    (hY := fun c s' => by
      iintro ⟨-, HU, HSI⟩
      unfold Zout Pipeline.unscopedRestP
      imodintro
      iapply (pointsTo_read_all (Pipeline.restRefsP sig Pipeline.Prefetch.none spec0) (fun b => (c.tc : Thread nD τ).loc b) (fun b => Wf m c b) s')
      isplitl [HU] <;> iassumption)
    (hQ := fun s h c => ⟨(h c).1, (h c).2.2⟩)

/-! ## The frame -/

/-- A bypassing buffer: unscoped, no window's array, and (nothing being prefetched) no table. -/
theorem mem_rest (b : Ref sig .tc) (hs : b.isScoped = false) (ha : ∀ w, (spec0 w).arr.view.ref ≠ b) :
    b ∈ Pipeline.restRefsP sig Pipeline.Prefetch.none spec0 :=
  Finset.mem_sdiff.mpr ⟨Pipeline.mem_restRefs_of b hs ha, fun h => by
    obtain ⟨k, -, -⟩ := Finset.mem_image.mp h; exact k.elim0⟩

/-- Neither line of host operations writes an argument array. -/
theorem Wf_main_arg0 (c : Dev nD) : Wf m c (Proc.devRef .tc main_arg0) = m ((c : Thread nD τ).loc main_arg0) :=
  (StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans
    ((Wx_rest m c main_arg0 (by decide)).trans (V_main_arg0 m c))

theorem Wf_main_arg1 (c : Dev nD) : Wf m c (Proc.devRef .tc main_arg1) = m ((c : Thread nD τ).loc main_arg1) :=
  (StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans
    ((Wx_rest m c main_arg1 (by decide)).trans (V_main_arg1 m c))

/-- THE FRAME: @main runs to the end, nothing faulting, and its three argument arrays end as launched — the first
    two bypass the region and no host operation writes them; the third is an input window's array, never written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (mem_rest main_arg0 (by decide) (by decide))).trans (Wf_main_arg0 m c),
     ((h c).2 main_arg1 (mem_rest main_arg1 (by decide) (by decide))).trans (Wf_main_arg1 m c),
     ((h c).1 4).trans ((arrAt_in0 m c 4 rfl _).trans (V_main_arg2 m c))⟩) (run_main m ρ)

end Cert.Kernel.Hand

end
-- ==== Proof.KIBase.lean ====
/-
  The frame of the edge-loss kernel, first part: what the region finds and where its conditions hold.

  @main is a line of host operations (d = s - t scaled by 1/8, its half squared row norms laid out as a
  column array and a row array), the one kernel region on an 8 x 8 grid, and a second line of host operations
  (the two sums over the per-row-tile partial results and the final quotient). Point t of the grid is the tile
  (t / 8, t % 8): the kernel zeroes its two scalar accumulators where t % 8 = 0, adds the tile's two sums to them
  at every point, and stores them into the two output blocks where t % 8 = 7.

  Here: the arrays' contents when the region is entered (the host operations before it applied to the launch
  memory), @main reduced to the region continued by the later line, each input window's block at a point, the two
  branch conditions decided over the grid, and where the two output windows are idle or written back.
-/
import proofs.«117120_j68917045231788_2_alg».proof.Proof.Gen.KernelIdeal.Launch
import proofs.«117120_j68917045231788_2_alg».proof.Proof.Gen.KernelIdeal.Skeleton
import proofs.«117120_j68917045231788_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents on core c when the region is entered: the first line of host operations applied to
    the launch memory. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the second line of host operations, the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- No host operation before the region writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, decided over the grid -/

/-- "This is the first tile of its row of tiles" (the accumulators are zeroed). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last tile of its row of tiles" (the accumulators are stored into the output blocks). -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Where the last-tile condition fails the two output windows are idle and not written back; where it holds
    they are live. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

/-! ## The memrefs the body is called with -/

abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x8 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8x128 .f32 := win0_6.stage (cfg0.slots t 6)
abbrev hs0_6 (t : Fin cfg0.N) : (ms0_6 t).IsWhole := hstage0_6 ((cfg0.slots t 6).cast nbuf0_6)
/-- The two scalar accumulators: scoped buffers of the kernel's own. -/
abbrev scM0_0 : Memref sig .tc .vmem S1x1 .f32 := Memref.whole cc0_scratch0
abbrev scM0_1 : Memref sig .tc .vmem S1x1 .f32 := Memref.whole cc0_scratch1
/-- Views through which the contents of an output block and of an accumulator are stated. -/
abbrev VO0_5 : View sig .tc .vmem S1x8x128 .f32 := (Memref.whole cc0_stg5_0 : Memref sig .tc .vmem S1x8x128 .f32).view
abbrev VO0_6 : View sig .tc .vmem S1x8x128 .f32 := (Memref.whole cc0_stg6_0 : Memref sig .tc .vmem S1x8x128 .f32).view
abbrev VS0_0 : View sig .tc .vmem S1x1 .f32 := scM0_0.view
abbrev VS0_1 : View sig .tc .vmem S1x1 .f32 := scM0_1.view

/-- The class invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KIRunB.lean ====
/-
  The edge-loss kernel's body run whole, at a tile that is neither first nor last of its row of tiles: from the input blocks, the two
  output buffers and the two scalar accumulators on whole staging memrefs to the same with the body's stores
  written, as lists of pieces the run finds.
-/
import proofs.«117120_j68917045231788_2_alg».proof.Proof.KIBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Neither condition holds: the accumulators are carried (`xs0`, `xs1`: what the point before left) and added to;
    the two output buffers are handed back untouched. -/
noncomputable def kernelRun0_B (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x8 .f32) (harg4 : arg4.IsWhole) (arg5 : Memref sig .tc .vmem S8x1024 .f32) (harg5 : arg5.IsWhole) (arg6 : Memref sig .tc .vmem S1024x1024 .f32) (harg6 : arg6.IsWhole) (arg7 : Memref sig .tc .vmem S1x8x128 .f32) (harg7 : arg7.IsWhole) (arg8 : Memref sig .tc .vmem S1x8x128 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i)
    (x0 : Vec F S1024x128 .bf16) (x1 : Vec F S1024x128 .bf16) (x2 : Vec F S1024x8 .f32) (x3 : Vec F S8x1024 .f32) (x4 : Vec F S1024x1024 .f32) (xs0 xs1 : Vec F S1x1 .f32) :
    Σ' (L5 : List (View.Piece (Elt F) S1x8x128 .f32)) (L6 : List (View.Piece (Elt F) S1x8x128 .f32)) (LS0 : List (View.Piece (Elt F) S1x1 .f32)), { LS1 : List (View.Piece (Elt F) S1x1 .f32) //
      ∀ (xi5 xi6 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__edge_kernel i arg2 harg2 arg3 harg3 arg4 harg4 arg5 harg5 arg6 harg6 arg7 harg7 arg8 harg8 arg9 harg9 arg10 harg10) K } := by
  refine ⟨[], [], ?_, ?_, fun xi5 xi6 E K => ?run⟩
  case run =>
    simp only [cc0__edge_kernel_eq_skeleton]; unfold cc0__edge_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hf6
    obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Hand

end
-- ==== Proof.KIRunA.lean ====
/-
  The edge-loss kernel's body run whole, at the first tile of a row of tiles: from the input blocks, the two
  output buffers and the two scalar accumulators on whole staging memrefs to the same with the body's stores
  written, as lists of pieces the run finds.
-/
import proofs.«117120_j68917045231788_2_alg».proof.Proof.KIRunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The first-tile condition holds, the last-tile one does not: the accumulators are zeroed first (whatever they
    held), then added to; the two output buffers are handed back untouched. -/
noncomputable def kernelRun0_A (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x8 .f32) (harg4 : arg4.IsWhole) (arg5 : Memref sig .tc .vmem S8x1024 .f32) (harg5 : arg5.IsWhole) (arg6 : Memref sig .tc .vmem S1024x1024 .f32) (harg6 : arg6.IsWhole) (arg7 : Memref sig .tc .vmem S1x8x128 .f32) (harg7 : arg7.IsWhole) (arg8 : Memref sig .tc .vmem S1x8x128 .f32) (harg8 : arg8.IsWhole) (arg9 : Memref sig .tc .vmem S1x1 .f32) (harg9 : arg9.IsWhole) (arg10 : Memref sig .tc .vmem S1x1 .f32) (harg10 : arg10.IsWhole) (hc0 : cond0_0 i) (hc1 : ¬cond0_1 i)
    (x0 : Vec F S1024x128 .bf16) (x1 : Vec F S1024x128 .bf16) (x2 : Vec F S1024x8 .f32) (x3 : Vec F S8x1024 .f32) (x4 : Vec F S1024x1024 .f32) :
    Σ' (L5 : List (View.Piece (Elt F) S1x8x128 .f32)) (L6 : List (View.Piece (Elt F) S1x8x128 .f32)) (LS0 : List (View.Piece (Elt F) S1x1 .f32)), { LS1 : List (View.Piece (Elt F) S1x1 .f32) //
      ∀ (xi5 xi6 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__edge_kernel i arg2 harg2 arg3 harg3 arg4 harg4 arg5 harg5 arg6 harg6 arg7 harg7 arg8 harg8 arg9 harg9 arg10 harg10) K } := by
  refine ⟨[], [], ?_, ?_, fun xi5 xi6 E K => ?run⟩
  case run =>
    simp only [cc0__edge_kernel_eq_skeleton]; unfold cc0__edge_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Hand

end
-- ==== Proof.KIRunC.lean ====
/-
  The edge-loss kernel's body run whole, at the last tile of a row of tiles: from the input blocks, the two
  output buffers and the two scalar accumulators on whole staging memrefs to the same with the body's stores
  written, as lists of pieces the run finds.
-/
import proofs.«117120_j68917045231788_2_alg».proof.Proof.KIRunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The last-tile condition holds, the first-tile one does not: the accumulators are carried and added to, then
    each is spread over its output block, whatever the block's buffer held. -/
noncomputable def kernelRun0_C (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x8 .f32) (harg4 : arg4.IsWhole) (arg5 : Memref sig .tc .vmem S8x1024 .f32) (harg5 : arg5.IsWhole) (arg6 : Memref sig .tc .vmem S1024x1024 .f32) (harg6 : arg6.IsWhole) (arg7 : Memref sig .tc .vmem S1x8x128 .f32) (harg7 : arg7.IsWhole) (arg8 : Memref sig .tc .vmem S1x8x128 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i)
    (x0 : Vec F S1024x128 .bf16) (x1 : Vec F S1024x128 .bf16) (x2 : Vec F S1024x8 .f32) (x3 : Vec F S8x1024 .f32) (x4 : Vec F S1024x1024 .f32) (xs0 xs1 : Vec F S1x1 .f32) :
    Σ' (L5 : List (View.Piece (Elt F) S1x8x128 .f32)) (L6 : List (View.Piece (Elt F) S1x8x128 .f32)) (LS0 : List (View.Piece (Elt F) S1x1 .f32)), { LS1 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__edge_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__edge_kernel_eq_skeleton]; unfold cc0__edge_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4
    obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]; · iexists _; iexact HS0
    iexists _; iexact HS1

end Cert.KernelIdeal.Hand

end
-- ==== Proof.KIFrame.lean ====
/-
  The frame of the edge-loss kernel, second part: what the two accumulators and the two output buffers hold
  after each grid point, the proof data of the pipeline, the body obligation, and the run of @main.

  The accumulators are carried from point to point within a row of tiles: zeroed at its first tile, added to at
  every tile, spread over the output blocks at its last. What they hold after point t is therefore defined by
  recursion on t (`outsAt0`), and the region invariant before point t + 1 holds them at exactly that.

  One array, the scaled difference d / 8, stands behind TWO input windows (the row block and the column block of
  a tile). The launch hands the pipeline each array whole at the full share; the proof data splits that array's
  share in two halves, one per window, and the two halves are only ever read.
-/
import proofs.«117120_j68917045231788_2_alg».proof.Proof.KIRunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's run at a grid point, case by case -/

/-- The run of the first-tile case at point t, on the memrefs and input blocks of that point. -/
abbrev runA (c : Dev nD) (t : Fin cfg0.N) (hc0 : cond0_0 (grid0.coords t)) (hc1 : ¬cond0_1 (grid0.coords t)) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 (iblk m c 0 t) (iblk m c 1 t) (iblk m c 2 t) (iblk m c 3 t) (iblk m c 4 t)
/-- The run of the middle case at point t, the accumulators at `xs0`, `xs1`. -/
abbrev runB (c : Dev nD) (t : Fin cfg0.N) (hc0 : ¬cond0_0 (grid0.coords t)) (hc1 : ¬cond0_1 (grid0.coords t)) (xs0 xs1 : Vec F S1x1 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 (iblk m c 0 t) (iblk m c 1 t) (iblk m c 2 t) (iblk m c 3 t) (iblk m c 4 t) xs0 xs1
/-- The run of the last-tile case at point t, the accumulators at `xs0`, `xs1`. -/
abbrev runC (c : Dev nD) (t : Fin cfg0.N) (hc0 : ¬cond0_0 (grid0.coords t)) (hc1 : cond0_1 (grid0.coords t)) (xs0 xs1 : Vec F S1x1 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 (iblk m c 0 t) (iblk m c 1 t) (iblk m c 2 t) (iblk m c 3 t) (iblk m c 4 t) xs0 xs1

/-- What a list of pieces leaves in an accumulator, and in an output buffer: the pieces read back. -/
def readS0 (L : List (View.Piece (Elt F) S1x1 .f32)) : Vec F S1x1 .f32 := VS0_0.read (Elt F) (VS0_0.writes (Elt F) VS0_0.junk L)
def readS1 (L : List (View.Piece (Elt F) S1x1 .f32)) : Vec F S1x1 .f32 := VS0_1.read (Elt F) (VS0_1.writes (Elt F) VS0_1.junk L)
def readO5 (L : List (View.Piece (Elt F) S1x8x128 .f32)) : Vec F S1x8x128 .f32 := VO0_5.read (Elt F) (VO0_5.writes (Elt F) VO0_5.junk L)
def readO6 (L : List (View.Piece (Elt F) S1x8x128 .f32)) : Vec F S1x8x128 .f32 := VO0_6.read (Elt F) (VO0_6.writes (Elt F) VO0_6.junk L)

/-- Each case's pieces for each accumulator cover it; the last-tile case's pieces for each output cover it. -/
theorem scoverA0 (c : Dev nD) (t : Fin cfg0.N) (hc0 : cond0_0 (grid0.coords t)) (hc1 : ¬cond0_1 (grid0.coords t)) (y : S1x1.Idx) : ∃ pc ∈ (runA m c t hc0 hc1).2.2.1, y ∈ pc.1.set :=
  View.cover_of_tiledL (runA m c t hc0 hc1).2.2.1 S1x1.size (by sl_kernel_rfl) y
theorem scoverA1 (c : Dev nD) (t : Fin cfg0.N) (hc0 : cond0_0 (grid0.coords t)) (hc1 : ¬cond0_1 (grid0.coords t)) (y : S1x1.Idx) : ∃ pc ∈ (runA m c t hc0 hc1).2.2.2.1, y ∈ pc.1.set :=
  View.cover_of_tiledL (runA m c t hc0 hc1).2.2.2.1 S1x1.size (by sl_kernel_rfl) y
theorem scoverB0 (c : Dev nD) (t : Fin cfg0.N) (hc0 : ¬cond0_0 (grid0.coords t)) (hc1 : ¬cond0_1 (grid0.coords t)) (xs0 xs1) (y : S1x1.Idx) : ∃ pc ∈ (runB m c t hc0 hc1 xs0 xs1).2.2.1, y ∈ pc.1.set :=
  View.cover_of_tiledL (runB m c t hc0 hc1 xs0 xs1).2.2.1 S1x1.size (by sl_kernel_rfl) y
theorem scoverB1 (c : Dev nD) (t : Fin cfg0.N) (hc0 : ¬cond0_0 (grid0.coords t)) (hc1 : ¬cond0_1 (grid0.coords t)) (xs0 xs1) (y : S1x1.Idx) : ∃ pc ∈ (runB m c t hc0 hc1 xs0 xs1).2.2.2.1, y ∈ pc.1.set :=
  View.cover_of_tiledL (runB m c t hc0 hc1 xs0 xs1).2.2.2.1 S1x1.size (by sl_kernel_rfl) y
theorem scoverC0 (c : Dev nD) (t : Fin cfg0.N) (hc0 : ¬cond0_0 (grid0.coords t)) (hc1 : cond0_1 (grid0.coords t)) (xs0 xs1) (y : S1x1.Idx) : ∃ pc ∈ (runC m c t hc0 hc1 xs0 xs1).2.2.1, y ∈ pc.1.set :=
  View.cover_of_tiledL (runC m c t hc0 hc1 xs0 xs1).2.2.1 S1x1.size (by sl_kernel_rfl) y
theorem scoverC1 (c : Dev nD) (t : Fin cfg0.N) (hc0 : ¬cond0_0 (grid0.coords t)) (hc1 : cond0_1 (grid0.coords t)) (xs0 xs1) (y : S1x1.Idx) : ∃ pc ∈ (runC m c t hc0 hc1 xs0 xs1).2.2.2.1, y ∈ pc.1.set :=
  View.cover_of_tiledL (runC m c t hc0 hc1 xs0 xs1).2.2.2.1 S1x1.size (by sl_kernel_rfl) y
theorem coverC5 (c : Dev nD) (t : Fin cfg0.N) (hc0 : ¬cond0_0 (grid0.coords t)) (hc1 : cond0_1 (grid0.coords t)) (xs0 xs1) (y : S1x8x128.Idx) : ∃ pc ∈ (runC m c t hc0 hc1 xs0 xs1).1, y ∈ pc.1.set :=
  View.cover_of_tiledL (runC m c t hc0 hc1 xs0 xs1).1 S1x8x128.size (by sl_kernel_rfl) y
theorem coverC6 (c : Dev nD) (t : Fin cfg0.N) (hc0 : ¬cond0_0 (grid0.coords t)) (hc1 : cond0_1 (grid0.coords t)) (xs0 xs1) (y : S1x8x128.Idx) : ∃ pc ∈ (runC m c t hc0 hc1 xs0 xs1).2.1, y ∈ pc.1.set :=
  View.cover_of_tiledL (runC m c t hc0 hc1 xs0 xs1).2.1 S1x8x128.size (by sl_kernel_rfl) y

/-! ## What the outputs and the accumulators hold after each point -/

/-- The four buffers after the body at one point: output 5, output 6, accumulator 0, accumulator 1. -/
abbrev Outs (F : FTy → Type) := Vec F S1x8x128 .f32 × Vec F S1x8x128 .f32 × Vec F S1x1 .f32 × Vec F S1x1 .f32

/-- Each case's four buffers from its run (an idle output's entry is a placeholder nothing consults). -/
def outsA (c : Dev nD) (t : Fin cfg0.N) (hc0 : cond0_0 (grid0.coords t)) (hc1 : ¬cond0_1 (grid0.coords t)) : Outs F :=
  (readO5 (runA m c t hc0 hc1).1, readO6 (runA m c t hc0 hc1).2.1, readS0 (runA m c t hc0 hc1).2.2.1, readS1 (runA m c t hc0 hc1).2.2.2.1)
def outsB (c : Dev nD) (t : Fin cfg0.N) (hc0 : ¬cond0_0 (grid0.coords t)) (hc1 : ¬cond0_1 (grid0.coords t)) (xs0 xs1 : Vec F S1x1 .f32) : Outs F :=
  (readO5 (runB m c t hc0 hc1 xs0 xs1).1, readO6 (runB m c t hc0 hc1 xs0 xs1).2.1, readS0 (runB m c t hc0 hc1 xs0 xs1).2.2.1, readS1 (runB m c t hc0 hc1 xs0 xs1).2.2.2.1)
def outsC (c : Dev nD) (t : Fin cfg0.N) (hc0 : ¬cond0_0 (grid0.coords t)) (hc1 : cond0_1 (grid0.coords t)) (xs0 xs1 : Vec F S1x1 .f32) : Outs F :=
  (readO5 (runC m c t hc0 hc1 xs0 xs1).1, readO6 (runC m c t hc0 hc1 xs0 xs1).2.1, readS0 (runC m c t hc0 hc1 xs0 xs1).2.2.1, readS1 (runC m c t hc0 hc1 xs0 xs1).2.2.2.1)

/-- THE ACCUMULATION: the four buffers after the body at position n, by recursion on n — the case the closed forms
    select at n, run at that point, the accumulators taken from what position n - 1 left. -/
def outsAt0 (c : Dev nD) : (n : ℕ) → n < cfg0.N → Outs F
  | 0, hn => outsA m c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 8 = 0 then
      if h1 : (n + 1) % 8 = 7 then False.elim (by omega)
      else outsA m c ⟨n + 1, hn⟩ ((hcond0_0 ⟨n + 1, hn⟩).mpr h0) (fun h => h1 ((hcond0_1 ⟨n + 1, hn⟩).mp h))
    else
      if h1 : (n + 1) % 8 = 7 then
        outsC m c ⟨n + 1, hn⟩ (fun h => h0 ((hcond0_0 ⟨n + 1, hn⟩).mp h)) ((hcond0_1 ⟨n + 1, hn⟩).mpr h1)
          (outsAt0 c n (Nat.lt_of_succ_lt hn)).2.2.1 (outsAt0 c n (Nat.lt_of_succ_lt hn)).2.2.2
      else
        outsB m c ⟨n + 1, hn⟩ (fun h => h0 ((hcond0_0 ⟨n + 1, hn⟩).mp h)) (fun h => h1 ((hcond0_1 ⟨n + 1, hn⟩).mp h))
          (outsAt0 c n (Nat.lt_of_succ_lt hn)).2.2.1 (outsAt0 c n (Nat.lt_of_succ_lt hn)).2.2.2

theorem outsAt0_A (c : Dev nD) (t : Fin cfg0.N) (h0 : t.val % 8 = 0) (h1 : ¬t.val % 8 = 7) :
    outsAt0 m c t.val t.isLt = outsA m c t ((hcond0_0 t).mpr h0) (fun h => h1 ((hcond0_1 t).mp h)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = outsB m c t (fun h => h0 ((hcond0_0 t).mp h)) (fun h => h1 ((hcond0_1 t).mp h))
      (outsAt0 m c (t.val - 1) (Nat.lt_of_le_of_lt (Nat.sub_le _ _) t.isLt)).2.2.1 (outsAt0 m c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = outsC m c t (fun h => h0 ((hcond0_0 t).mp h)) ((hcond0_1 t).mpr h1)
      (outsAt0 m c (t.val - 1) (Nat.lt_of_le_of_lt (Nat.sub_le _ _) t.isLt)).2.2.1 (outsAt0 m c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point the class's (every scratch at anything);
    afterwards the two accumulators at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The proof data on core c: the arrays as the region finds them; after the body each input's buffer at its block,
    the two outputs' at `outsAt0`; the invariant `PhiS`; nothing owed; the array behind windows 0 and 1 held in two
    halves, one per window, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point. The inputs' memrefs hold their blocks; the closed forms say which case the point is in;
    the invariant hands the body the accumulators at what the point before left (at anything before the first
    point) and takes them back at this point's contents; an output the case does not store into is handed back as it
    was found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  by_cases h0 : t.val % 8 = 0
  · have h1 : ¬t.val % 8 = 7 := by omega
    rw [Dat.leavesExact_idle (dats m 0 c) 5 t (idleAt0_5 t (fun h => h1 ((hcond0_1 t).mp h))) (noFlush0_5 t (fun h => h1 ((hcond0_1 t).mp h)))]
    rw [Dat.leavesExact_idle (dats m 0 c) 6 t (idleAt0_6 t (fun h => h1 ((hcond0_1 t).mp h))) (noFlush0_6 t (fun h => h1 ((hcond0_1 t).mp h)))]
    rw [outsAt0_A m c t h0 h1]
    unfold outsA readS0 readS1; (try dsimp only)
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((runA m c t ((hcond0_0 t).mpr h0) (fun h => h1 ((hcond0_1 t).mp h))).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverA0 m c t _ _)
          · unfold owns; iexists _; isplitr
            swap; · iexact HS1
            ipureintro; exact View.read_writes_of_cover _ _ _ _ _ (scoverA1 m c t _ _)
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((runA m c t ((hcond0_0 t).mpr h0) (fun h => h1 ((hcond0_1 t).mp h))).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      iintro ⟨H0, H1, H2, H3, H4, H5, H6, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverA0 m c t _ _)
          · unfold owns; iexists _; isplitr
            swap; · iexact HS1
            ipureintro; exact View.read_writes_of_cover _ _ _ _ _ (scoverA1 m c t _ _)
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
  · by_cases h1 : t.val % 8 = 7
    · rw [show (dats m 0 c).leavesExact 5 t = owns (c : Thread nD τ) (ms0_5 t) fullShare ((dats m 0 c).after 5 t) from by
        unfold Dat.leavesExact; rw [liveAt0_5 t ((hcond0_1 t).mpr h1)], after0_5]
      rw [show (dats m 0 c).leavesExact 6 t = owns (c : Thread nD τ) (ms0_6 t) fullShare ((dats m 0 c).after 6 t) from by
        unfold Dat.leavesExact; rw [liveAt0_6 t ((hcond0_1 t).mpr h1)], after0_6]
      rw [outsAt0_C m c t h0 h1]
      unfold outsC readO5 readO6 readS0 readS1; (try dsimp only)
      have hz : t.val ≠ 0 := by omega
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((runC m c t (fun h => h0 ((hcond0_0 t).mp h)) ((hcond0_1 t).mpr h1) _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, ⟨%e5, H5⟩, ⟨%e6, H6⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverC0 m c t _ _ _ _)
          · unfold owns; iexists _; isplitr
            swap; · iexact HS1
            ipureintro; exact View.read_writes_of_cover _ _ _ _ _ (scoverC1 m c t _ _ _ _)
        · iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (coverC5 m c t _ _ _ _)
      unfold owns; iexists _; isplitr
      swap; · iexact H6
      ipureintro; exact View.read_writes_of_cover _ _ _ _ _ (coverC6 m c t _ _ _ _)
    · have hz : t.val ≠ 0 := by omega
      rw [Dat.leavesExact_idle (dats m 0 c) 5 t (idleAt0_5 t (fun h => h1 ((hcond0_1 t).mp h))) (noFlush0_5 t (fun h => h1 ((hcond0_1 t).mp h)))]
      rw [Dat.leavesExact_idle (dats m 0 c) 6 t (idleAt0_6 t (fun h => h1 ((hcond0_1 t).mp h))) (noFlush0_6 t (fun h => h1 ((hcond0_1 t).mp h)))]
      rw [outsAt0_B m c t h0 h1]
      unfold outsB readS0 readS1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((runB m c t (fun h => h0 ((hcond0_0 t).mp h)) (fun h => h1 ((hcond0_1 t).mp h)) _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverB0 m c t _ _ _ _)
          · unfold owns; iexists _; isplitr
            swap; · iexact HS1
            ipureintro; exact View.read_writes_of_cover _ _ _ _ _ (scoverB1 m c t _ _ _ _)
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the accumulators' contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 64 := N_0; omega)

end Cert.KernelIdeal.Hand

end
-- ==== Proof.Spec.lean ====
/-
  The mathematics of the claim, stated once over the extended reals and over no program.

  Arguments: two node arrays s, t of 8192 rows and 128 features, and an adjacency array of 8192 x 8192
  entries. With d = s - t the loss is

      1 * ( mean over all entries of d*d  +  ( sum over edges of the pair term ) / ( sum of adj + eps ) )

  where the pair term of the edge (r, c) is the mean over the 128 features of (d r - d c)^2, counted where
  adj (r, c) > 0. Two spellings of the numerator and of the denominator are given:
  * the reference's: the pair term as ((|d r|^2 + |d c|^2) - 2 * <d r, d c>) / 128, multiplied by the
    0/1 mask of adj > 0, summed over all (r, c);
  * the kernel's: rows scaled by 1/8 first, the pair term as (h r + h c) - <d r / 8, d c / 8> with
    h r = 1/2 * |d r / 8|^2, selected where adj > 0 (else zero), summed tile by tile over an 8 x 8 grid of
    1024 x 1024 tiles.
  That the two agree for real-valued s and t is the algebra module's; this module only names the terms.
-/
import Idealize.ShloMosaic.PureOps.Ideal
import Idealize.ShloMosaic.Lib.ValueIdx

noncomputable section

namespace Cert.Spec

open Idealize.ShloMosaic Idealize.ShloMosaic.ValueIdx
open scoped BigOperators

/-- Node arrays and the adjacency array, as functions of an index. -/
abbrev Nodes := (⟨2, ![8192, 128]⟩ : Shape).Idx → EReal
abbrev Adj := (⟨2, ![8192, 8192]⟩ : Shape).Idx → EReal

/-- The float literals of the two programs, as the extended reals their words denote. -/
abbrev cZero : EReal := Ideal.ofBits .f32 0x00000000#32
abbrev cEighth : EReal := Ideal.ofBits .f32 0x3E000000#32
abbrev cHalf : EReal := Ideal.ofBits .f32 0x3F000000#32
abbrev cTwo : EReal := Ideal.ofBits .f32 0x40000000#32
abbrev c128 : EReal := Ideal.ofBits .f32 0x43000000#32
abbrev cCount : EReal := Ideal.ofBits .f32 0x49800000#32
abbrev cEps : EReal := Ideal.ofBits .f32 0x358637BD#32
abbrev cOne : EReal := Ideal.ofBits .f32 0x3F800000#32

variable (s t : Nodes) (adj : Adj)

/-- d = s - t at row r, feature k. -/
def diff (r : Fin 8192) (k : Fin 128) : EReal := s (ix2 r k) - t (ix2 r k)

/-- The node term: the sum of d*d over every entry, from zero, divided by the number of entries. -/
def node : EReal :=
  Ideal.div (cZero + ∑ i : (⟨2, ![8192, 128]⟩ : Shape).Idx, (s i - t i) * (s i - t i)) cCount

/-! ## The reference's spelling -/

/-- |d r|^2. -/
def sq (r : Fin 8192) : EReal := ∑ k : Fin 128, diff s t r k * diff s t r k
/-- <d r, d c>. -/
def gram (r c : Fin 8192) : EReal := ∑ k : Fin 128, diff s t r k * diff s t c k
/-- The pair term ((|d r|^2 + |d c|^2) - 2 <d r, d c>) / 128. -/
def pairR (r c : Fin 8192) : EReal := Ideal.div ((sq s t r + sq s t c) - cTwo * gram s t r c) c128
/-- The 0/1 mask of "x > 0", as a number. -/
def maskR (x : EReal) : EReal := (((Ideal.cmp .ogt x cZero).toNat : ℝ) : EReal)
def numR : EReal := ∑ r : Fin 8192, ∑ c : Fin 8192, maskR (adj (ix2 r c)) * pairR s t r c
def denR : EReal := ∑ r : Fin 8192, ∑ c : Fin 8192, adj (ix2 r c)

/-! ## The kernel's spelling -/

/-- d / 8. -/
def scaled (r : Fin 8192) (k : Fin 128) : EReal := diff s t r k * cEighth
/-- h r = 1/2 |d r / 8|^2. -/
def halfSq (r : Fin 8192) : EReal := cHalf * ∑ k : Fin 128, scaled s t r k * scaled s t r k
/-- <d r / 8, d c / 8>. -/
def gramK (r c : Fin 8192) : EReal := ∑ k : Fin 128, scaled s t r k * scaled s t c k
/-- The pair term (h r + h c) - <d r / 8, d c / 8>. -/
def pairK (r c : Fin 8192) : EReal := (halfSq s t r + halfSq s t c) - gramK s t r c
/-- "a where x > 0, else zero". -/
def selK (x a : EReal) : EReal := Scalar.select (Ideal.cmp .ogt x cZero) a cZero
/-- Row (or column) p of tile i of 1024. -/
def tileRow (i : Fin 8) (p : Fin 1024) : Fin 8192 := ⟨i.val * 1024 + p.val, by omega⟩
/-- What tile (i, j) adds to the numerator and to the denominator. -/
def tileNum (i j : Fin 8) : EReal :=
  ∑ p : Fin 1024, ∑ q : Fin 1024, selK (adj (ix2 (tileRow i p) (tileRow j q))) (pairK s t (tileRow i p) (tileRow j q))
def tileDen (i j : Fin 8) : EReal := ∑ p : Fin 1024, ∑ q : Fin 1024, adj (ix2 (tileRow i p) (tileRow j q))
def numK : EReal := ∑ i : Fin 8, ∑ j : Fin 8, tileNum s t adj i j
def denK : EReal := ∑ i : Fin 8, ∑ j : Fin 8, tileDen adj i j

/-! ## The result -/

/-- The scalar both programs return, from a node term, a numerator and a denominator. -/
def result (nd num den : EReal) : EReal := cOne * (nd + Ideal.div num (den + cEps))

end Cert.Spec

end
-- ==== Proof.KIPay.lean ====
import proofs.«117120_j68917045231788_2_alg».proof.Proof.Gen.KernelIdeal.Skeleton
import proofs.«117120_j68917045231788_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen
open scoped BigOperators

/-! ## The small payloads -/

/-- The accumulator plus the tile's contribution. -/
theorem pay1_apply (v28 : FVec Ideal S1x1 .f32) (v34 : Vec Ideal S1x1 .f32) (y : S1x1.Idx) :
    k0_pay1 v28 v34 y = v34 y + v28 y := by
  unfold k0_pay1
  simp only [shapeCast_self]
  rfl

/-- The one entry of a 1 x 1 array, read at (0, 0). -/
theorem extract00 (v : S1x1.Idx → EReal) (h : ∀ a, (![0, 0] : Fin 2 → Nat) a < S1x1.size a) :
    extractAt ![0, 0] v h = v (ix2 (0 : Fin 1) (0 : Fin 1)) := by
  unfold extractAt
  refine congrArg v (funext fun a => ?_)
  match a with
  | ⟨0, _⟩ => rfl
  | ⟨1, _⟩ => rfl

/-- A splat of the one entry. -/
theorem pay2_apply (v42 : Vec Ideal S1x1 .f32) (y : S1x8x128.Idx) :
    k0_pay2 v42 y = v42 (ix2 (0 : Fin 1) (0 : Fin 1)) := by
  unfold k0_pay2
  simp only [broadcast_apply]
  exact extract00 v42 _

theorem pay3_apply (v46 : Vec Ideal S1x1 .f32) (y : S1x8x128.Idx) :
    k0_pay3 v46 y = v46 (ix2 (0 : Fin 1) (0 : Fin 1)) := by
  unfold k0_pay3
  simp only [broadcast_apply]
  exact extract00 v46 _

/-- The two accumulators start from zero. -/
theorem pay4_apply (y : S1x1.Idx) : k0_pay4 (F := Ideal) y = 0 := by
  unfold k0_pay4
  simp only [shapeCast_self, broadcast_apply]
  exact Ideal.ofBits_zero_f32

theorem pay5_apply (y : S1x1.Idx) : k0_pay5 (F := Ideal) y = 0 := by
  unfold k0_pay5
  simp only [shapeCast_self, broadcast_apply]
  exact Ideal.ofBits_zero_f32

/-! ## Layout pieces and the two one-axis sums

  A column cast [a] to [a, 1], a column broadcast [a, 1] to [a, b], and the sums over the lanes of a row and over
  the rows of a column, each read at coordinates. -/

section Layout
variable {α : Type}

/-- An [a] array cast to [a, 1] reads, at (i, u), the operand at i, whatever the unit coordinate u. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's one column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The sum over the lanes of row p. -/
theorem rowSum_apply (src : FVec Ideal S1024x1024 .f32) (h : S1024x1024.Reduces [1] S1024) (hφ : FKind.Formats .f32)
    (hacc : (0x00000000#32 : BitVec 32) = FKind.add.neutral .f32 hφ) (p : Fin 1024) :
    multiReduction .add [1] S1024 src 0x00000000#32 h hφ hacc (ix1 p) = ∑ q : Fin 1024, src (ix2 p q) := by
  refine (Ideal.multiReduction_add_single src _ h hφ hacc (ix1 p)).trans ?_
  refine Finset.sum_congr rfl fun q _ => congrArg src (funext fun a => ?_)
  match a with
  | ⟨0, _⟩ => exact Fin.ext rfl
  | ⟨1, _⟩ => exact Fin.ext rfl

/-- The sum over the rows of a one-lane column. -/
theorem colSum_apply (src : FVec Ideal S1024x1 .f32) (h : S1024x1.Reduces [0] S1) (hφ : FKind.Formats .f32)
    (hacc : (0x00000000#32 : BitVec 32) = FKind.add.neutral .f32 hφ) (u : Fin 1) :
    multiReduction .add [0] S1 src 0x00000000#32 h hφ hacc (ix1 u) = ∑ p : Fin 1024, src (ix2 p u) := by
  refine (Ideal.multiReduction_add_single src _ h hφ hacc (ix1 u)).trans ?_
  refine Finset.sum_congr rfl fun p _ => congrArg src (funext fun a => ?_)
  match a with
  | ⟨0, _⟩ => exact Fin.ext rfl
  | ⟨1, _⟩ => exact Fin.ext rfl

/-- Both sums, one after the other: the total of a 1024 x 1024 tile, as a 1 x 1 array. -/
theorem total_apply (src : FVec Ideal S1024x1024 .f32) (h1 : S1024x1024.Reduces [1] S1024) (h0 : S1024x1.Reduces [0] S1)
    (hφ : FKind.Formats .f32) (hacc : (0x00000000#32 : BitVec 32) = FKind.add.neutral .f32 hφ)
    (c1 : S1024.ShapeCasts S1024x1) (c0 : S1.ShapeCasts S1x1) (u w : Fin 1) :
    shapeCast S1x1 (multiReduction .add [0] S1
        (shapeCast S1024x1 (multiReduction .add [1] S1024 src 0x00000000#32 h1 hφ hacc) c1) 0x00000000#32 h0 hφ hacc) c0 (ix2 u w)
      = ∑ p : Fin 1024, ∑ q : Fin 1024, src (ix2 p q) := by
  refine (shapeCast_a_1a_apply _ c0 u w).trans ?_
  refine (colSum_apply _ h0 hφ hacc w).trans ?_
  refine Finset.sum_congr rfl fun p _ => ?_
  refine (shapeCast_a_a1_apply _ c1 p w).trans ?_
  exact rowSum_apply src h1 hφ hacc p

/-! ## The denominator's payload -/

theorem pay6_apply (v16 : Vec Ideal S1024x1024 .f32) (y : S1x1.Idx) :
    k0_pay6 (F := Ideal) v16 y = ∑ p : Fin 1024, ∑ q : Fin 1024, v16 (ix2 p q) := by
  obtain ⟨u, w, rfl⟩ : ∃ (u : Fin 1) (w : Fin 1), y = ix2 u w := ⟨y 0, y 1, eq_ix2 y⟩
  unfold k0_pay6
  exact total_apply v16 _ _ _ _ _ _ u w

/-! ## The product of the two scaled row blocks

  The contraction runs over the feature axis of BOTH operands: entry (p, q) of the product is the sum over
  the 128 features k of left (p, k) times right (q, k). -/

theorem lhs_0 (i : S1024x1024.Idx) (c : dot_S1024x128_S1024x128_S1024x1024_1_1_0_0_n_n.contr.Idx) :
    (dot_S1024x128_S1024x128_S1024x1024_1_1_0_0_n_n.lhsIdx i c 0).val = (i 0).val := by
  unfold DotDims.lhsIdx
  rw [dif_neg (show ¬(0 : Fin S1024x128.rank) ∈ dot_S1024x128_S1024x128_S1024x1024_1_1_0_0_n_n.lhsBatch by decide), dif_pos (show (0 : Fin S1024x128.rank) ∈ dot_S1024x128_S1024x128_S1024x1024_1_1_0_0_n_n.lhsNonContracting by decide)]
  rfl
theorem lhs_1 (i : S1024x1024.Idx) (c : dot_S1024x128_S1024x128_S1024x1024_1_1_0_0_n_n.contr.Idx) :
    (dot_S1024x128_S1024x128_S1024x1024_1_1_0_0_n_n.lhsIdx i c 1).val = (c ⟨0, by decide⟩).val :=
  dot_S1024x128_S1024x128_S1024x1024_1_1_0_0_n_n.lhsIdx_val_of_single rfl i c
theorem rhs_0 (i : S1024x1024.Idx) (c : dot_S1024x128_S1024x128_S1024x1024_1_1_0_0_n_n.contr.Idx) :
    (dot_S1024x128_S1024x128_S1024x1024_1_1_0_0_n_n.rhsIdx i c 0).val = (i 1).val := by
  unfold DotDims.rhsIdx
  rw [dif_neg (show ¬(0 : Fin S1024x128.rank) ∈ dot_S1024x128_S1024x128_S1024x1024_1_1_0_0_n_n.rhsBatch by decide), dif_pos (show (0 : Fin S1024x128.rank) ∈ dot_S1024x128_S1024x128_S1024x1024_1_1_0_0_n_n.rhsNonContracting by decide)]
  rfl
theorem rhs_1 (i : S1024x1024.Idx) (c : dot_S1024x128_S1024x128_S1024x1024_1_1_0_0_n_n.contr.Idx) :
    (dot_S1024x128_S1024x128_S1024x1024_1_1_0_0_n_n.rhsIdx i c 1).val = (c ⟨0, by decide⟩).val :=
  dot_S1024x128_S1024x128_S1024x1024_1_1_0_0_n_n.rhsIdx_val_of_single rfl i c

theorem gram_apply (l r : FVec Ideal S1024x128 .bf16) (p q : Fin 1024) :
    matmul dot_S1024x128_S1024x128_S1024x1024_1_1_0_0_n_n none l r (constant (F := Ideal) S1024x1024 .f32 0x00000000#32) (ix2 p q)
      = ∑ k : Fin 128, l (ix2 p k) * r (ix2 q k) := by
  simp only [matmul]
  rw [Ideal.matmul_constant_zero_apply, ← Equiv.sum_comp (contrEquiv1 dot_S1024x128_S1024x128_S1024x1024_1_1_0_0_n_n 128 rfl rfl).symm]
  refine Finset.sum_congr rfl fun k _ => ?_
  have hk := contrEquiv1_symm_val dot_S1024x128_S1024x128_S1024x1024_1_1_0_0_n_n 128 rfl rfl k
  have el : dot_S1024x128_S1024x128_S1024x1024_1_1_0_0_n_n.lhsIdx (ix2 p q) ((contrEquiv1 dot_S1024x128_S1024x128_S1024x1024_1_1_0_0_n_n 128 rfl rfl).symm k) = ix2 p k := funext fun a => Fin.ext (by
    match a with
    | ⟨0, _⟩ => exact lhs_0 _ _
    | ⟨1, _⟩ => exact (lhs_1 _ _).trans hk)
  have er : dot_S1024x128_S1024x128_S1024x1024_1_1_0_0_n_n.rhsIdx (ix2 p q) ((contrEquiv1 dot_S1024x128_S1024x128_S1024x1024_1_1_0_0_n_n 128 rfl rfl).symm k) = ix2 q k := funext fun a => Fin.ext (by
    match a with
    | ⟨0, _⟩ => exact rhs_0 _ _
    | ⟨1, _⟩ => exact (rhs_1 _ _).trans hk)
  rw [el, er]

/-! ## The numerator's payload

  Entry (p, q) of the tile: the column term at p plus the row term at q, minus the product's entry, kept where
  the adjacency entry is positive and replaced by zero elsewhere; then the total over the tile, added to the
  accumulator. -/

theorem pay7_apply (v3 v5 : Vec Ideal S1024x128 .bf16) (v8 : Vec Ideal S1024x1 .f32) (v10 : Vec Ideal S1x1024 .f32)
    (v16 : Vec Ideal S1024x1024 .f32) (v29 : Vec Ideal S1x1 .f32) (y : S1x1.Idx) :
    k0_pay7 v3 v5 v8 v10 v16 v29 y = v29 y + ∑ p : Fin 1024, ∑ q : Fin 1024,
      Cert.Spec.selK (v16 (ix2 p q))
        ((v8 (ix2 p (0 : Fin 1)) + v10 (ix2 (0 : Fin 1) q)) - ∑ k : Fin 128, v3 (ix2 p k) * v5 (ix2 q k)) := by
  obtain ⟨u, w, rfl⟩ : ∃ (u : Fin 1) (w : Fin 1), y = ix2 u w := ⟨y 0, y 1, eq_ix2 y⟩
  unfold k0_pay7
  simp only [shapeCast_self]
  rw [addf_apply]
  refine congrArg (v29 (ix2 u w) + ·) ?_
  refine (total_apply _ _ _ _ _ _ _ u w).trans ?_
  refine Finset.sum_congr rfl fun p _ => Finset.sum_congr rfl fun q _ => ?_
  rw [select_apply, cmpf_apply, subf_apply, addf_apply,
    broadcastTo_a1_ab_apply, broadcastTo_1b_ab_apply, gram_apply]
  rfl

end Cert.KernelIdeal.Pay

end
-- ==== Proof.KIHostPre.lean ====
import proofs.«117120_j68917045231788_2_alg».proof.Proof.KIBase
import proofs.«117120_j68917045231788_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HostPre

open Idealize.ShloMosaic Idealize.ShloMosaic.TcCoe Idealize.ShloMosaic.ValueIdx Idealize.SL.Sem
open Idealize.ShloMosaic.StableHlo
open Cert.KernelIdeal Cert.KernelIdeal.Gen
open scoped BigOperators

variable (m : (ℓ : Loc nD τ sig) → Buf (Elt Ideal) ℓ) (c : Dev nD)

/-! ## The host operations' terms, over two variable arrays

  Before the region the host computes, from the two node arrays s and t: the node term (the total of d*d from
  zero, divided by the entry count), the scaled rows d/8 stored at half width, and h = 1/2 |d/8|^2 per row, laid
  out once as a column array (8 equal columns) and once as a row array (8 equal rows). Each is named here as a
  function of s and t and read at coordinates; at the ideal values narrowing and widening a format change nothing. -/

section Terms
variable (s t : FVec Ideal S8192x128 .f32)

/-- The node term's array (one entry). -/
def nodeT : FVec Ideal S_ .f32 :=
  Host.divf (Host.reduceAdd (mulf (subf s t) (subf s t)) (constant (F := Ideal) S_ .f32 0x00000000#32) reducesTo_S8192x128_S_d0_1 h_S_)
    (constant (F := Ideal) S_ .f32 0x49800000#32)

/-- The scaled rows d/8. -/
def scaledT : FVec Ideal S8192x128 .bf16 :=
  truncf .bf16 (mulf (subf s t) (broadcastInDim S8192x128 ![] bcast_S_S8192x128 (constant (F := Ideal) S_ .f32 0x3E000000#32))) bitsLt_bf16_f32

/-- h = 1/2 |d/8|^2, one entry per row. -/
def halfT : FVec Ideal S8192 .f32 :=
  mulf (broadcastInDim S8192 ![] bcast_S_S8192 (constant (F := Ideal) S_ .f32 0x3F000000#32))
    (Host.reduceAdd (mulf (extf .f32 (scaledT s t) bitsLt_bf16_f32) (extf .f32 (scaledT s t) bitsLt_bf16_f32))
      (constant (F := Ideal) S_ .f32 0x00000000#32) reducesTo_S8192x128_S8192_d1 h_S_)

/-- h as 8 equal columns. -/
def halfColT : FVec Ideal S8192x8 .f32 :=
  broadcastInDim S8192x8 ![0, 1] bcast_S8192x1_S8192x8_0_1 (broadcastInDim S8192x1 ![0] bcast_S8192_S8192x1_0 (halfT s t))

/-- h as 8 equal rows. -/
def halfRowT : FVec Ideal S8x8192 .f32 :=
  broadcastInDim S8x8192 ![0, 1] bcast_S1x8192_S8x8192_0_1 (broadcastInDim S1x8192 ![1] bcast_S8192_S1x8192_1 (halfT s t))

/-- The host's sum over the features of row r, from zero. -/
theorem rowReduce_apply (x : FVec Ideal S8192x128 .f32) (r : Fin 8192) :
    Host.reduceAdd x (constant (F := Ideal) S_ .f32 0x00000000#32) reducesTo_S8192x128_S8192_d1 h_S_ (ix1 r)
      = ∑ k : Fin 128, x (ix2 r k) := by
  simp only [Host.reduceAdd, Ideal.hostReduceAdd_def]
  rw [Ideal.hostReduceAdd_single reducesTo_S8192x128_S8192_d1 (by decide)]
  rw [constant_apply, Ideal.ofBits_zero_f32, zero_add]
  exact Finset.sum_congr rfl fun k _ => congrArg x (funext fun a => Fin.ext (by
    match a with | ⟨0, _⟩ => rfl | ⟨1, _⟩ => rfl))

/-- The host's sum over every entry, from the zero word. -/
theorem totalReduce_apply (x : FVec Ideal S8192x128 .f32) (i : S_.Idx) :
    Host.reduceAdd x (constant (F := Ideal) S_ .f32 0x00000000#32) reducesTo_S8192x128_S_d0_1 h_S_ i
      = Cert.Spec.cZero + ∑ j : S8192x128.Idx, x j := by
  simp only [Host.reduceAdd, Ideal.hostReduceAdd_def]
  exact Ideal.hostReduceAdd_total reducesTo_S8192x128_S_d0_1 (fun b => b.elim0) x _ i

theorem nodeT_apply : nodeT s t ix0 = Cert.Spec.node s t := by
  unfold nodeT Host.divf
  rw [Ideal.hostDivf_def, totalReduce_apply]
  rfl

theorem scaledT_apply (r : Fin 8192) (k : Fin 128) : scaledT s t (ix2 r k) = Cert.Spec.scaled s t r k := by
  unfold scaledT
  rw [truncf_apply, mulf_apply, subf_apply, broadcastInDim_apply ![] bcast_S_S8192x128 _ (ix2 r k) ix0 (fun a => a.elim0)]
  rfl

theorem halfT_apply (r : Fin 8192) : halfT s t (ix1 r) = Cert.Spec.halfSq s t r := by
  unfold halfT
  rw [mulf_apply, broadcastInDim_apply ![] bcast_S_S8192 _ (ix1 r) ix0 (fun a => a.elim0), rowReduce_apply]
  refine congrArg (Cert.Spec.cHalf * ·) (Finset.sum_congr rfl fun k _ => ?_)
  rw [mulf_apply, extf_apply, scaledT_apply]

theorem halfColT_apply (r : Fin 8192) (j : Fin 8) : halfColT s t (ix2 r j) = Cert.Spec.halfSq s t r := by
  unfold halfColT
  rw [broadcastInDim_apply ![0, 1] bcast_S8192x1_S8192x8_0_1 _ (ix2 r j) (ix2 r (0 : Fin 1)) (fun a => match a with
      | ⟨0, _⟩ => by show r.val = if (8192 : Nat) = 1 then 0 else r.val; rw [if_neg (by decide)]
      | ⟨1, _⟩ => rfl),
    broadcastInDim_apply ![0] bcast_S8192_S8192x1_0 _ (ix2 r (0 : Fin 1)) (ix1 r) (fun a => match a with
      | ⟨0, _⟩ => by show r.val = if (8192 : Nat) = 1 then 0 else r.val; rw [if_neg (by decide)])]
  exact halfT_apply s t r

theorem halfRowT_apply (j : Fin 8) (cc : Fin 8192) : halfRowT s t (ix2 j cc) = Cert.Spec.halfSq s t cc := by
  unfold halfRowT
  rw [broadcastInDim_apply ![0, 1] bcast_S1x8192_S8x8192_0_1 _ (ix2 j cc) (ix2 (0 : Fin 1) cc) (fun a => match a with
      | ⟨0, _⟩ => rfl
      | ⟨1, _⟩ => by show cc.val = if (8192 : Nat) = 1 then 0 else cc.val; rw [if_neg (by decide)]),
    broadcastInDim_apply ![1] bcast_S8192_S1x8192_1 _ (ix2 (0 : Fin 1) cc) (ix1 cc) (fun a => match a with
      | ⟨0, _⟩ => by show cc.val = if (8192 : Nat) = 1 then 0 else cc.val; rw [if_neg (by decide)])]
  exact halfT_apply s t cc

end Terms

/-! ## The buffers when the region is entered

  Each of the four buffers holds its term of the two argument arrays as launched; read at coordinates, the
  specification's node term, scaled rows and half squared norms. -/

theorem V_v3 : (Hand.V m c main_v3 : S_.Idx → EReal)
    = nodeT (m ((c : Thread nD τ).loc main_arg0)) (m ((c : Thread nD τ).loc main_arg1)) := by
  dsimp only [Hand.V, Hand.V0]
  simp only [hostOps0, List.flatten_cons, List.flatten_nil, List.append_nil]
  after_results
  rfl

theorem V_v6 : (Hand.V m c main_v6 : S8192x128.Idx → EReal)
    = scaledT (m ((c : Thread nD τ).loc main_arg0)) (m ((c : Thread nD τ).loc main_arg1)) := by
  dsimp only [Hand.V, Hand.V0]
  simp only [hostOps0, List.flatten_cons, List.flatten_nil, List.append_nil]
  after_results
  rfl

theorem V_v13 : (Hand.V m c main_v13 : S8192x8.Idx → EReal)
    = halfColT (m ((c : Thread nD τ).loc main_arg0)) (m ((c : Thread nD τ).loc main_arg1)) := by
  dsimp only [Hand.V, Hand.V0]
  simp only [hostOps0, List.flatten_cons, List.flatten_nil, List.append_nil]
  after_results
  rfl

theorem V_v15 : (Hand.V m c main_v15 : S8x8192.Idx → EReal)
    = halfRowT (m ((c : Thread nD τ).loc main_arg0)) (m ((c : Thread nD τ).loc main_arg1)) := by
  dsimp only [Hand.V, Hand.V0]
  simp only [hostOps0, List.flatten_cons, List.flatten_nil, List.append_nil]
  after_results
  rfl

theorem v3_apply : Hand.V m c main_v3 ix0
    = Cert.Spec.node (m ((c : Thread nD τ).loc main_arg0)) (m ((c : Thread nD τ).loc main_arg1)) :=
  (congrFun (V_v3 m c) ix0).trans (nodeT_apply _ _)

theorem v6_apply (r : Fin 8192) (k : Fin 128) : Hand.V m c main_v6 (ix2 r k)
    = Cert.Spec.scaled (m ((c : Thread nD τ).loc main_arg0)) (m ((c : Thread nD τ).loc main_arg1)) r k :=
  (congrFun (V_v6 m c) (ix2 r k)).trans (scaledT_apply _ _ r k)

theorem v13_apply (r : Fin 8192) (j : Fin 8) : Hand.V m c main_v13 (ix2 r j)
    = Cert.Spec.halfSq (m ((c : Thread nD τ).loc main_arg0)) (m ((c : Thread nD τ).loc main_arg1)) r :=
  (congrFun (V_v13 m c) (ix2 r j)).trans (halfColT_apply _ _ r j)

theorem v15_apply (j : Fin 8) (cc : Fin 8192) : Hand.V m c main_v15 (ix2 j cc)
    = Cert.Spec.halfSq (m ((c : Thread nD τ).loc main_arg0)) (m ((c : Thread nD τ).loc main_arg1)) cc :=
  (congrFun (V_v15 m c) (ix2 j cc)).trans (halfRowT_apply _ _ j cc)

end Cert.KernelIdeal.HostPre

end
-- ==== Proof.KIValue.lean ====
/-
  The edge-loss kernel's value, read off its frame.

  Point t of the 8 x 8 grid is the tile (t / 8, t % 8) of the 8192 x 8192 index set. The body keeps two scalar
  accumulators: at every tile it adds to the first the tile's sum of the selected pair terms and to the second the
  tile's sum of the adjacency entries; at the first tile of a row of tiles it zeroes both before adding; at the last
  tile of a row of tiles it spreads each accumulator over its output block.

  First: what each case of the body leaves in each accumulator and, at a last tile, in each output block, as the
  body's arithmetic applied to the input blocks and to what the accumulator held.
-/
import proofs.«117120_j68917045231788_2_alg».proof.Proof.KIFrame
import proofs.«117120_j68917045231788_2_alg».proof.Proof.KIPay
import proofs.«117120_j68917045231788_2_alg».proof.Proof.Spec
import proofs.«117120_j68917045231788_2_alg».proof.Proof.KIHostPre
import Idealize.ShloMosaic.Lib.Pipeline.Value

set_option maxRecDepth 16384

noncomputable section

namespace Cert.KernelIdeal.Val

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Hand
open scoped BigOperators

/-! ## The pieces as the body's arithmetic -/

section Pieces

variable {F : FTy → Type} [FloatOps F]
variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The first column of a 1024 x 8 block: the body reads the column term of a tile through it. -/
abbrev col (x : Vec F S1024x8 .f32) : Vec F S1024x1 .f32 :=
  View.ld x (Rect.unit ![0, 0] ![1024, 1] inb_S1024x8_S1024x1_0_0)
/-- The first row of an 8 x 1024 block: the body reads the row term of a tile through it. -/
abbrev row (x : Vec F S8x1024 .f32) : Vec F S1x1024 .f32 :=
  View.ld x (Rect.unit ![0, 0] ![1, 1024] inb_S8x1024_S1x1024_0_0)

/-- Tile t's sum of selected pair terms added to acc. -/
abbrev numStep (c : Dev nD) (t : Fin cfg0.N) (acc : Vec F S1x1 .f32) : Vec F S1x1 .f32 :=
  k0_pay7 (iblk m c 0 t) (iblk m c 1 t) (col (iblk m c 2 t)) (row (iblk m c 3 t)) (iblk m c 4 t) acc
/-- Tile t's sum of adjacency entries added to acc. -/
abbrev denStep (c : Dev nD) (t : Fin cfg0.N) (acc : Vec F S1x1 .f32) : Vec F S1x1 .f32 :=
  k0_pay1 (k0_pay6 (iblk m c 4 t)) acc

/-- First tile of a row of tiles: the first accumulator is zeroed, then added to. -/
theorem accA0 (c : Dev nD) (t : Fin cfg0.N) (hc0 : cond0_0 (grid0.coords t)) (hc1 : ¬cond0_1 (grid0.coords t)) :
    readS0 (runA m c t hc0 hc1).2.2.1 = numStep m c t k0_pay4 := by
  unfold readS0
  rw [View.read_writes_eq_canon _ _ _ (scoverA0 m c t hc0 hc1)]
  unfold runA kernelRun0_A
  dsimp only
  sl_unfold_words
  rw [View.canon_cons_unit_zero (S := S1x1) hz2]
  simp only [View.readAt_eq_ld, Memref.IsWhole.read_unread, View.ld_unit_zero (S := S1024x128) hz2,
    View.ld_unit_zero (S := S1024x1024) hz2, View.readCov_unit_zero (S := S1x1) _ hz2]

/-- First tile of a row of tiles: the second accumulator is zeroed, then added to. -/
theorem accA1 (c : Dev nD) (t : Fin cfg0.N) (hc0 : cond0_0 (grid0.coords t)) (hc1 : ¬cond0_1 (grid0.coords t)) :
    readS1 (runA m c t hc0 hc1).2.2.2.1 = denStep m c t k0_pay5 := by
  unfold readS1
  rw [View.read_writes_eq_canon _ _ _ (scoverA1 m c t hc0 hc1)]
  unfold runA kernelRun0_A
  dsimp only
  sl_unfold_words
  rw [View.canon_cons_unit_zero (S := S1x1) hz2]
  simp only [View.readAt_eq_ld, Memref.IsWhole.read_unread, View.ld_unit_zero (S := S1024x1024) hz2,
    View.readCov_unit_zero (S := S1x1) _ hz2]

/-- A middle tile: the first accumulator is added to. -/
theorem accB0 (c : Dev nD) (t : Fin cfg0.N) (hc0 : ¬cond0_0 (grid0.coords t)) (hc1 : ¬cond0_1 (grid0.coords t))
    (xs0 xs1 : Vec F S1x1 .f32) : readS0 (runB m c t hc0 hc1 xs0 xs1).2.2.1 = numStep m c t xs0 := by
  unfold readS0
  rw [View.read_writes_eq_canon _ _ _ (scoverB0 m c t hc0 hc1 xs0 xs1)]
  unfold runB kernelRun0_B
  dsimp only
  sl_unfold_words
  rw [View.canon_unit_zero hz2]
  simp only [View.readAt_eq_ld, Memref.IsWhole.read_unread, View.ld_unit_zero (S := S1024x128) hz2,
    View.ld_unit_zero (S := S1024x1024) hz2, View.ld_unit_zero (S := S1x1) hz2]
  exact congrArg (k0_pay7 _ _ _ _ _) ((Memref.isWhole_whole cc0_scratch0).read_unread xs0)

/-- A middle tile: the second accumulator is added to. -/
theorem accB1 (c : Dev nD) (t : Fin cfg0.N) (hc0 : ¬cond0_0 (grid0.coords t)) (hc1 : ¬cond0_1 (grid0.coords t))
    (xs0 xs1 : Vec F S1x1 .f32) : readS1 (runB m c t hc0 hc1 xs0 xs1).2.2.2.1 = denStep m c t xs1 := by
  unfold readS1
  rw [View.read_writes_eq_canon _ _ _ (scoverB1 m c t hc0 hc1 xs0 xs1)]
  unfold runB kernelRun0_B
  dsimp only
  sl_unfold_words
  rw [View.canon_unit_zero hz2]
  simp only [View.readAt_eq_ld, Memref.IsWhole.read_unread, View.ld_unit_zero (S := S1024x1024) hz2,
    View.ld_unit_zero (S := S1x1) hz2]
  exact congrArg (k0_pay1 _) ((Memref.isWhole_whole cc0_scratch1).read_unread xs1)

/-- Last tile of a row of tiles: the first accumulator is added to. -/
theorem accC0 (c : Dev nD) (t : Fin cfg0.N) (hc0 : ¬cond0_0 (grid0.coords t)) (hc1 : cond0_1 (grid0.coords t))
    (xs0 xs1 : Vec F S1x1 .f32) : readS0 (runC m c t hc0 hc1 xs0 xs1).2.2.1 = numStep m c t xs0 := by
  unfold readS0
  rw [View.read_writes_eq_canon _ _ _ (scoverC0 m c t hc0 hc1 xs0 xs1)]
  unfold runC kernelRun0_C
  dsimp only
  sl_unfold_words
  rw [View.canon_unit_zero hz2]
  simp only [View.readAt_eq_ld, Memref.IsWhole.read_unread, View.ld_unit_zero (S := S1024x128) hz2,
    View.ld_unit_zero (S := S1024x1024) hz2, View.ld_unit_zero (S := S1x1) hz2]
  exact congrArg (k0_pay7 _ _ _ _ _) ((Memref.isWhole_whole cc0_scratch0).read_unread xs0)

/-- Last tile of a row of tiles: the second accumulator is added to. -/
theorem accC1 (c : Dev nD) (t : Fin cfg0.N) (hc0 : ¬cond0_0 (grid0.coords t)) (hc1 : cond0_1 (grid0.coords t))
    (xs0 xs1 : Vec F S1x1 .f32) : readS1 (runC m c t hc0 hc1 xs0 xs1).2.2.2.1 = denStep m c t xs1 := by
  unfold readS1
  rw [View.read_writes_eq_canon _ _ _ (scoverC1 m c t hc0 hc1 xs0 xs1)]
  unfold runC kernelRun0_C
  dsimp only
  sl_unfold_words
  rw [View.canon_unit_zero hz2]
  simp only [View.readAt_eq_ld, Memref.IsWhole.read_unread, View.ld_unit_zero (S := S1024x1024) hz2,
    View.ld_unit_zero (S := S1x1) hz2]
  exact congrArg (k0_pay1 _) ((Memref.isWhole_whole cc0_scratch1).read_unread xs1)

/-- Last tile of a row of tiles: the first output block is the first accumulator, as just added to, spread over it. -/
theorem outC5 (c : Dev nD) (t : Fin cfg0.N) (hc0 : ¬cond0_0 (grid0.coords t)) (hc1 : cond0_1 (grid0.coords t))
    (xs0 xs1 : Vec F S1x1 .f32) : readO5 (runC m c t hc0 hc1 xs0 xs1).1 = k0_pay2 (numStep m c t xs0) := by
  unfold readO5
  rw [View.read_writes_eq_canon _ _ _ (coverC5 m c t hc0 hc1 xs0 xs1)]
  unfold runC kernelRun0_C
  dsimp only
  sl_unfold_words
  rw [View.canon_unit_zero hz3]
  simp only [View.readAt_eq_ld, Memref.IsWhole.read_unread, View.ld_unit_zero (S := S1024x128) hz2,
    View.ld_unit_zero (S := S1024x1024) hz2, View.ld_unit_zero (S := S1x1) hz2, View.readCov_unit_zero (S := S1x1) _ hz2]
  exact congrArg (fun z => k0_pay2 (k0_pay7 _ _ _ _ _ z)) ((Memref.isWhole_whole cc0_scratch0).read_unread xs0)

/-- Last tile of a row of tiles: the second output block is the second accumulator, as just added to, spread over it. -/
theorem outC6 (c : Dev nD) (t : Fin cfg0.N) (hc0 : ¬cond0_0 (grid0.coords t)) (hc1 : cond0_1 (grid0.coords t))
    (xs0 xs1 : Vec F S1x1 .f32) : readO6 (runC m c t hc0 hc1 xs0 xs1).2.1 = k0_pay3 (denStep m c t xs1) := by
  unfold readO6
  rw [View.read_writes_eq_canon _ _ _ (coverC6 m c t hc0 hc1 xs0 xs1)]
  unfold runC kernelRun0_C
  dsimp only
  sl_unfold_words
  rw [View.canon_unit_zero hz3]
  simp only [View.readAt_eq_ld, Memref.IsWhole.read_unread, View.ld_unit_zero (S := S1024x1024) hz2,
    View.ld_unit_zero (S := S1x1) hz2, View.readCov_unit_zero (S := S1x1) _ hz2]
  exact congrArg (fun z => k0_pay3 (k0_pay1 _ z)) ((Memref.isWhole_whole cc0_scratch1).read_unread xs1)

end Pieces

/-! ## The input blocks, read where the windows' rectangles say -/

section Blocks

variable {F : FTy → Type} [FloatOps F]
variable (m : (ℓ : Loc nD τ sig) → Buf (Elt F) ℓ)

/-- The block index of each window at point t: windows 0 and 2 follow the tile's row, windows 1 and 3 its column,
    window 4 both, the two output windows its row. Decided over the grid. -/
theorem widx0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
theorem widx1 : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)
theorem widx2 : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)
theorem widx3 : ∀ t : Fin cfg0.N, win0_3.index t (0 : Fin 2) = 0 ∧ win0_3.index t (1 : Fin 2) = t.val % 8 :=
  (by decide +kernel : ∀ t : Fin grid0.N, win0_3.index t (0 : Fin 2) = 0 ∧ win0_3.index t (1 : Fin 2) = t.val % 8)
theorem widx4 : ∀ t : Fin cfg0.N, win0_4.index t (0 : Fin 2) = t.val / 8 ∧ win0_4.index t (1 : Fin 2) = t.val % 8 :=
  (by decide +kernel : ∀ t : Fin grid0.N, win0_4.index t (0 : Fin 2) = t.val / 8 ∧ win0_4.index t (1 : Fin 2) = t.val % 8)

/-- Window 0's block at point t: rows 1024 (t / 8) + p of the scaled difference. -/
theorem iblk0_apply (c : Dev nD) (t : Fin cfg0.N) (x : S1024x128.Idx) (k : S8192x128.Idx)
    (hk0 : (k 0).val = t.val / 8 * 1024 + (x 0).val) (hk1 : (k 1).val = (x 1).val) :
    (iblk m c 0 t : Vec F S1024x128 .bf16) x = (V m c main_v6 : S8192x128.Idx → Elt F .bf16) k := by
  unfold iblk
  rw [View.read_apply]
  show V m c main_v6 _ = V m c main_v6 _
  congr 1
  funext a
  apply Fin.ext
  match a with
  | ⟨0, _⟩ => show win0_0.index t 0 * 1024 + 1 * (x 0).val = (k 0).val; rw [(widx0 t).1, hk0]; omega
  | ⟨1, _⟩ => show win0_0.index t 1 * 128 + 1 * (x 1).val = (k 1).val; rw [(widx0 t).2, hk1]; omega

/-- Window 1's block at point t: rows 1024 (t % 8) + q of the scaled difference. -/
theorem iblk1_apply (c : Dev nD) (t : Fin cfg0.N) (x : S1024x128.Idx) (k : S8192x128.Idx)
    (hk0 : (k 0).val = t.val % 8 * 1024 + (x 0).val) (hk1 : (k 1).val = (x 1).val) :
    (iblk m c 1 t : Vec F S1024x128 .bf16) x = (V m c main_v6 : S8192x128.Idx → Elt F .bf16) k := by
  unfold iblk
  rw [View.read_apply]
  show V m c main_v6 _ = V m c main_v6 _
  congr 1
  funext a
  apply Fin.ext
  match a with
  | ⟨0, _⟩ => show win0_1.index t 0 * 1024 + 1 * (x 0).val = (k 0).val; rw [(widx1 t).1, hk0]; omega
  | ⟨1, _⟩ => show win0_1.index t 1 * 128 + 1 * (x 1).val = (k 1).val; rw [(widx1 t).2, hk1]; omega

/-- Window 2's block at point t: rows 1024 (t / 8) + p of the column array of half squared norms. -/
theorem iblk2_apply (c : Dev nD) (t : Fin cfg0.N) (x : S1024x8.Idx) (k : S8192x8.Idx)
    (hk0 : (k 0).val = t.val / 8 * 1024 + (x 0).val) (hk1 : (k 1).val = (x 1).val) :
    (iblk m c 2 t : Vec F S1024x8 .f32) x = (V m c main_v13 : S8192x8.Idx → Elt F .f32) k := by
  unfold iblk
  rw [View.read_apply]
  show V m c main_v13 _ = V m c main_v13 _
  congr 1
  funext a
  apply Fin.ext
  match a with
  | ⟨0, _⟩ => show win0_2.index t 0 * 1024 + 1 * (x 0).val = (k 0).val; rw [(widx2 t).1, hk0]; omega
  | ⟨1, _⟩ => show win0_2.index t 1 * 8 + 1 * (x 1).val = (k 1).val; rw [(widx2 t).2, hk1]; omega

/-- Window 3's block at point t: columns 1024 (t % 8) + q of the row array of half squared norms. -/
theorem iblk3_apply (c : Dev nD) (t : Fin cfg0.N) (x : S8x1024.Idx) (k : S8x8192.Idx)
    (hk0 : (k 0).val = (x 0).val) (hk1 : (k 1).val = t.val % 8 * 1024 + (x 1).val) :
    (iblk m c 3 t : Vec F S8x1024 .f32) x = (V m c main_v15 : S8x8192.Idx → Elt F .f32) k := by
  unfold iblk
  rw [View.read_apply]
  show V m c main_v15 _ = V m c main_v15 _
  congr 1
  funext a
  apply Fin.ext
  match a with
  | ⟨0, _⟩ => show win0_3.index t 0 * 8 + 1 * (x 0).val = (k 0).val; rw [(widx3 t).1, hk0]; omega
  | ⟨1, _⟩ => show win0_3.index t 1 * 1024 + 1 * (x 1).val = (k 1).val; rw [(widx3 t).2, hk1]; omega

/-- Window 4's block at point t: tile (t / 8, t % 8) of the adjacency array. -/
theorem iblk4_apply (c : Dev nD) (t : Fin cfg0.N) (x : S1024x1024.Idx) (k : S8192x8192.Idx)
    (hk0 : (k 0).val = t.val / 8 * 1024 + (x 0).val) (hk1 : (k 1).val = t.val % 8 * 1024 + (x 1).val) :
    (iblk m c 4 t : Vec F S1024x1024 .f32) x = (V m c main_arg2 : S8192x8192.Idx → Elt F .f32) k := by
  unfold iblk
  rw [View.read_apply]
  show V m c main_arg2 _ = V m c main_arg2 _
  congr 1
  funext a
  apply Fin.ext
  match a with
  | ⟨0, _⟩ => show win0_4.index t 0 * 1024 + 1 * (x 0).val = (k 0).val; rw [(widx4 t).1, hk0]; omega
  | ⟨1, _⟩ => show win0_4.index t 1 * 1024 + 1 * (x 1).val = (k 1).val; rw [(widx4 t).2, hk1]; omega

/-- The first column of a block, at row p. -/
theorem col_apply (x : Vec F S1024x8 .f32) (p : Fin 1024) (u : Fin 1) : col x (ix2 p u) = x (ix2 p (0 : Fin 8)) := by
  show x _ = x _
  congr 1
  funext a
  apply Fin.ext
  match a with
  | ⟨0, _⟩ => show 0 + 1 * p.val = p.val; omega
  | ⟨1, _⟩ => show 0 + 1 * u.val = 0; omega

/-- The first row of a block, at column q. -/
theorem row_apply (x : Vec F S8x1024 .f32) (u : Fin 1) (q : Fin 1024) : row x (ix2 u q) = x (ix2 (0 : Fin 8) q) := by
  show x _ = x _
  congr 1
  funext a
  apply Fin.ext
  match a with
  | ⟨0, _⟩ => show 0 + 1 * u.val = 0; omega
  | ⟨1, _⟩ => show 0 + 1 * q.val = q.val; omega

end Blocks

/-! ## The accumulators as running sums over a row of tiles -/

section Running

/-- The terms g 0, ..., g n of a row of eight, added up from the left. -/
def upTo (g : Fin 8 → EReal) (n : ℕ) : EReal :=
  ∑ j ∈ Finset.range (n + 1), if h : j < 8 then g ⟨j, h⟩ else 0

theorem upTo_zero (g : Fin 8 → EReal) : upTo g 0 = g 0 := by
  unfold upTo
  rw [Finset.sum_range_one, dif_pos (by decide)]
  rfl

theorem upTo_succ (g : Fin 8 → EReal) (k : ℕ) (hk : k + 1 < 8) : upTo g (k + 1) = upTo g k + g ⟨k + 1, hk⟩ := by
  unfold upTo
  rw [Finset.sum_range_succ, dif_pos hk]

theorem upTo_seven (g : Fin 8 → EReal) : upTo g 7 = ∑ j : Fin 8, g j := by
  unfold upTo
  rw [Finset.sum_range]
  exact Finset.sum_congr rfl fun j _ => dif_pos j.isLt

/-- One tile's step on the first accumulator, from what the five blocks are. -/
theorem pay7_tile (x0 x1 : Vec Ideal S1024x128 .bf16) (x2 : Vec Ideal S1024x8 .f32) (x3 : Vec Ideal S8x1024 .f32)
    (x4 : Vec Ideal S1024x1024 .f32) (acc : Vec Ideal S1x1 .f32) (y : S1x1.Idx)
    (s t' : Cert.Spec.Nodes) (adj : Cert.Spec.Adj) (i j : Fin 8)
    (h0 : ∀ p k, x0 (ix2 p k) = Cert.Spec.scaled s t' (Cert.Spec.tileRow i p) k)
    (h1 : ∀ q k, x1 (ix2 q k) = Cert.Spec.scaled s t' (Cert.Spec.tileRow j q) k)
    (h2 : ∀ p, x2 (ix2 p (0 : Fin 8)) = Cert.Spec.halfSq s t' (Cert.Spec.tileRow i p))
    (h3 : ∀ q, x3 (ix2 (0 : Fin 8) q) = Cert.Spec.halfSq s t' (Cert.Spec.tileRow j q))
    (h4 : ∀ p q, x4 (ix2 p q) = adj (ix2 (Cert.Spec.tileRow i p) (Cert.Spec.tileRow j q))) :
    k0_pay7 x0 x1 (col x2) (row x3) x4 acc y = acc y + Cert.Spec.tileNum s t' adj i j := by
  rw [Pay.pay7_apply]
  refine congrArg (acc y + ·) ?_
  unfold Cert.Spec.tileNum
  refine Finset.sum_congr rfl fun p _ => Finset.sum_congr rfl fun q _ => ?_
  rw [col_apply, row_apply, h2, h3, h4]
  unfold Cert.Spec.pairK Cert.Spec.gramK
  have e : (∑ k : Fin 128, x0 (ix2 p k) * x1 (ix2 q k))
      = ∑ k : Fin 128, Cert.Spec.scaled s t' (Cert.Spec.tileRow i p) k * Cert.Spec.scaled s t' (Cert.Spec.tileRow j q) k :=
    Finset.sum_congr rfl fun k _ => by rw [h0, h1]
  rw [e]

/-- One tile's step on the second accumulator. -/
theorem pay1_tile (x4 : Vec Ideal S1024x1024 .f32) (acc : Vec Ideal S1x1 .f32) (y : S1x1.Idx)
    (adj : Cert.Spec.Adj) (i j : Fin 8)
    (h4 : ∀ p q, x4 (ix2 p q) = adj (ix2 (Cert.Spec.tileRow i p) (Cert.Spec.tileRow j q))) :
    k0_pay1 (k0_pay6 x4) acc y = acc y + Cert.Spec.tileDen adj i j := by
  rw [Pay.pay1_apply, Pay.pay6_apply]
  refine congrArg (acc y + ·) ?_
  unfold Cert.Spec.tileDen
  exact Finset.sum_congr rfl fun p _ => Finset.sum_congr rfl fun q _ => h4 p q

variable (m : (ℓ : Loc nD τ sig) → Buf (Elt Ideal) ℓ) (c : Dev nD)

/-- The two node arrays and the adjacency array as launched. -/
abbrev sArr : Cert.Spec.Nodes := m ((c : Thread nD τ).loc main_arg0)
abbrev tArr : Cert.Spec.Nodes := m ((c : Thread nD τ).loc main_arg1)
abbrev adjArr : Cert.Spec.Adj := m ((c : Thread nD τ).loc main_arg2)

/-- Point t is tile (ti t, tj t). -/
def ti (t : Fin cfg0.N) : Fin 8 := ⟨t.val / 8, by have := t.isLt; have : cfg0.N = 64 := N_0; omega⟩
def tj (t : Fin cfg0.N) : Fin 8 := ⟨t.val % 8, Nat.mod_lt _ (by decide)⟩

/-- The five input blocks at point t, entry by entry. -/
theorem blk0_at (t : Fin cfg0.N) (p : Fin 1024) (k : Fin 128) :
    (iblk m c 0 t : Vec Ideal S1024x128 .bf16) (ix2 p k)
      = Cert.Spec.scaled (sArr m c) (tArr m c) (Cert.Spec.tileRow (ti t) p) k :=
  (iblk0_apply m c t (ix2 p k) (ix2 (Cert.Spec.tileRow (ti t) p) k) rfl rfl).trans
    (Cert.KernelIdeal.HostPre.v6_apply m c _ k)
theorem blk1_at (t : Fin cfg0.N) (q : Fin 1024) (k : Fin 128) :
    (iblk m c 1 t : Vec Ideal S1024x128 .bf16) (ix2 q k)
      = Cert.Spec.scaled (sArr m c) (tArr m c) (Cert.Spec.tileRow (tj t) q) k :=
  (iblk1_apply m c t (ix2 q k) (ix2 (Cert.Spec.tileRow (tj t) q) k) rfl rfl).trans
    (Cert.KernelIdeal.HostPre.v6_apply m c _ k)
theorem blk2_at (t : Fin cfg0.N) (p : Fin 1024) :
    (iblk m c 2 t : Vec Ideal S1024x8 .f32) (ix2 p (0 : Fin 8))
      = Cert.Spec.halfSq (sArr m c) (tArr m c) (Cert.Spec.tileRow (ti t) p) :=
  (iblk2_apply m c t (ix2 p (0 : Fin 8)) (ix2 (Cert.Spec.tileRow (ti t) p) (0 : Fin 8)) rfl rfl).trans
    (Cert.KernelIdeal.HostPre.v13_apply m c _ 0)
theorem blk3_at (t : Fin cfg0.N) (q : Fin 1024) :
    (iblk m c 3 t : Vec Ideal S8x1024 .f32) (ix2 (0 : Fin 8) q)
      = Cert.Spec.halfSq (sArr m c) (tArr m c) (Cert.Spec.tileRow (tj t) q) :=
  (iblk3_apply m c t (ix2 (0 : Fin 8) q) (ix2 (0 : Fin 8) (Cert.Spec.tileRow (tj t) q)) rfl rfl).trans
    (Cert.KernelIdeal.HostPre.v15_apply m c 0 _)
theorem blk4_at (t : Fin cfg0.N) (p q : Fin 1024) :
    (iblk m c 4 t : Vec Ideal S1024x1024 .f32) (ix2 p q)
      = adjArr m c (ix2 (Cert.Spec.tileRow (ti t) p) (Cert.Spec.tileRow (tj t) q)) :=
  (iblk4_apply m c t (ix2 p q) (ix2 (Cert.Spec.tileRow (ti t) p) (Cert.Spec.tileRow (tj t) q)) rfl rfl).trans
    (congrFun (V_main_arg2 m c) _)

/-- The body's step at point t adds tile (ti t, tj t)'s two sums to the accumulators. -/
theorem numStep_apply (t : Fin cfg0.N) (acc : Vec Ideal S1x1 .f32) (y : S1x1.Idx) :
    numStep m c t acc y = acc y + Cert.Spec.tileNum (sArr m c) (tArr m c) (adjArr m c) (ti t) (tj t) :=
  pay7_tile _ _ _ _ _ acc y _ _ _ _ _ (blk0_at m c t) (blk1_at m c t) (blk2_at m c t) (blk3_at m c t) (blk4_at m c t)
theorem denStep_apply (t : Fin cfg0.N) (acc : Vec Ideal S1x1 .f32) (y : S1x1.Idx) :
    denStep m c t acc y = acc y + Cert.Spec.tileDen (adjArr m c) (ti t) (tj t) :=
  pay1_tile _ acc y _ _ _ (blk4_at m c t)

end Running

section Induction

variable (m : (ℓ : Loc nD τ sig) → Buf (Elt Ideal) ℓ) (c : Dev nD)

/-- At the first tile of a row of tiles the accumulators hold that tile's two sums. -/
theorem acc_at_first (t : Fin cfg0.N) (h0 : t.val % 8 = 0) (y : S1x1.Idx) :
    (outsAt0 m c t.val t.isLt).2.2.1 y = Cert.Spec.tileNum (sArr m c) (tArr m c) (adjArr m c) (ti t) (tj t)
    ∧ (outsAt0 m c t.val t.isLt).2.2.2 y = Cert.Spec.tileDen (adjArr m c) (ti t) (tj t) := by
  have h1 : ¬t.val % 8 = 7 := by omega
  rw [outsAt0_A m c t h0 h1]
  unfold outsA
  dsimp only
  rw [accA0, accA1, numStep_apply, denStep_apply, Pay.pay4_apply, Pay.pay5_apply, zero_add, zero_add]
  exact ⟨rfl, rfl⟩

/-- At every other tile they hold what the tile before left plus this tile's two sums. -/
theorem acc_at_later (t : Fin cfg0.N) (h0 : ¬t.val % 8 = 0) (y : S1x1.Idx) :
    (outsAt0 m c t.val t.isLt).2.2.1 y
        = (outsAt0 m c (t.val - 1) (Nat.lt_of_le_of_lt (Nat.sub_le _ _) t.isLt)).2.2.1 y
          + Cert.Spec.tileNum (sArr m c) (tArr m c) (adjArr m c) (ti t) (tj t)
    ∧ (outsAt0 m c t.val t.isLt).2.2.2 y
        = (outsAt0 m c (t.val - 1) (Nat.lt_of_le_of_lt (Nat.sub_le _ _) t.isLt)).2.2.2 y
          + Cert.Spec.tileDen (adjArr m c) (ti t) (tj t) := by
  by_cases h1 : t.val % 8 = 7
  · rw [outsAt0_C m c t h0 h1]
    unfold outsC
    dsimp only
    rw [accC0, accC1, numStep_apply, denStep_apply]
    exact ⟨rfl, rfl⟩
  · rw [outsAt0_B m c t h0 h1]
    unfold outsB
    dsimp only
    rw [accB0, accB1, numStep_apply, denStep_apply]
    exact ⟨rfl, rfl⟩

/-- THE RUNNING SUMS: after position n, which is tile (i, n % 8) of row i = n / 8 of tiles, the two accumulators hold
    the sums of the tiles (i, 0), ..., (i, n % 8). -/
theorem acc_eq : ∀ (n : ℕ) (h : n < cfg0.N) (i : Fin 8) (hi : i.val = n / 8) (y : S1x1.Idx),
    (outsAt0 m c n h).2.2.1 y = upTo (fun j => Cert.Spec.tileNum (sArr m c) (tArr m c) (adjArr m c) i j) (n % 8)
    ∧ (outsAt0 m c n h).2.2.2 y = upTo (fun j => Cert.Spec.tileDen (adjArr m c) i j) (n % 8) := by
  intro n
  induction n with
  | zero =>
    intro h i hi y
    obtain ⟨e0, e1⟩ := acc_at_first m c ⟨0, h⟩ rfl y
    have hti : ti ⟨0, h⟩ = i := Fin.ext (by show 0 / 8 = i.val; omega)
    have htj : tj ⟨0, h⟩ = 0 := Fin.ext rfl
    rw [hti, htj] at e0 e1
    refine ⟨e0.trans ?_, e1.trans ?_⟩
    · exact (upTo_zero _).symm
    · exact (upTo_zero _).symm
  | succ k ih =>
    intro h i hi y
    by_cases h0 : (k + 1) % 8 = 0
    · obtain ⟨e0, e1⟩ := acc_at_first m c ⟨k + 1, h⟩ h0 y
      have hti : ti ⟨k + 1, h⟩ = i := Fin.ext (by show (k + 1) / 8 = i.val; omega)
      have htj : tj ⟨k + 1, h⟩ = 0 := Fin.ext (by show (k + 1) % 8 = 0; exact h0)
      rw [hti, htj] at e0 e1
      rw [h0]
      refine ⟨e0.trans ?_, e1.trans ?_⟩
      · exact (upTo_zero _).symm
      · exact (upTo_zero _).symm
    · obtain ⟨e0, e1⟩ := acc_at_later m c ⟨k + 1, h⟩ h0 y
      obtain ⟨p0, p1⟩ := ih (Nat.lt_of_succ_lt h) i (by omega) y
      have e2 : (k + 1) % 8 = k % 8 + 1 := by omega
      have hk : k % 8 + 1 < 8 := by omega
      have hti : ti ⟨k + 1, h⟩ = i := Fin.ext (by show (k + 1) / 8 = i.val; omega)
      have htj : tj ⟨k + 1, h⟩ = ⟨k % 8 + 1, hk⟩ := Fin.ext (by show (k + 1) % 8 = k % 8 + 1; exact e2)
      rw [hti, htj] at e0 e1
      rw [e2, upTo_succ _ _ hk, upTo_succ _ _ hk]
      exact ⟨e0.trans (congrArg (· + _) p0), e1.trans (congrArg (· + _) p1)⟩

/-- At the last tile of a row of tiles each output block holds, at every entry, its accumulator's one entry. -/
theorem out_at_last (t : Fin cfg0.N) (h1 : t.val % 8 = 7) (y : S1x8x128.Idx) :
    (outsAt0 m c t.val t.isLt).1 y = (outsAt0 m c t.val t.isLt).2.2.1 (ix2 (0 : Fin 1) (0 : Fin 1))
    ∧ (outsAt0 m c t.val t.isLt).2.1 y = (outsAt0 m c t.val t.isLt).2.2.2 (ix2 (0 : Fin 1) (0 : Fin 1)) := by
  have h0 : ¬t.val % 8 = 0 := by omega
  rw [outsAt0_C m c t h0 h1]
  unfold outsC
  dsimp only
  rw [outC5, outC6, accC0, accC1, Pay.pay2_apply, Pay.pay3_apply]
  exact ⟨rfl, rfl⟩

/-- So at the last tile of row i of tiles each output block holds, at every entry, the sum over the row's eight tiles. -/
theorem out_last_eq (t : Fin cfg0.N) (h1 : t.val % 8 = 7) (y : S1x8x128.Idx) :
    (outsAt0 m c t.val t.isLt).1 y = ∑ j : Fin 8, Cert.Spec.tileNum (sArr m c) (tArr m c) (adjArr m c) (ti t) j
    ∧ (outsAt0 m c t.val t.isLt).2.1 y = ∑ j : Fin 8, Cert.Spec.tileDen (adjArr m c) (ti t) j := by
  obtain ⟨a, b⟩ := out_at_last m c t h1 y
  obtain ⟨p0, p1⟩ := acc_eq m c t.val t.isLt (ti t) rfl (ix2 (0 : Fin 1) (0 : Fin 1))
  rw [h1, upTo_seven] at p0 p1
  exact ⟨a.trans p0, b.trans p1⟩

end Induction

/-! ## The two output arrays after the region -/

section Arrays

variable (m : (ℓ : Loc nD τ sig) → Buf (Elt Ideal) ℓ) (c : Dev nD)

/-- The output windows' block at point t is slab t / 8 of the 8 x 8 x 128 array, whole in the other two axes. -/
theorem widx5 : ∀ t : Fin cfg0.N, win0_5.index t (0 : Fin 3) = t.val / 8 ∧ win0_5.index t (1 : Fin 3) = 0 ∧ win0_5.index t (2 : Fin 3) = 0 :=
  (by decide +kernel : ∀ t : Fin grid0.N, win0_5.index t (0 : Fin 3) = t.val / 8 ∧ win0_5.index t (1 : Fin 3) = 0 ∧ win0_5.index t (2 : Fin 3) = 0)
theorem widx6 : ∀ t : Fin cfg0.N, win0_6.index t (0 : Fin 3) = t.val / 8 ∧ win0_6.index t (1 : Fin 3) = 0 ∧ win0_6.index t (2 : Fin 3) = 0 :=
  (by decide +kernel : ∀ t : Fin grid0.N, win0_6.index t (0 : Fin 3) = t.val / 8 ∧ win0_6.index t (1 : Fin 3) = 0 ∧ win0_6.index t (2 : Fin 3) = 0)
theorem wext5 : ∀ t : Fin cfg0.N, win0_5.xsize (grid0.coords t) (0 : Fin 3) = 1 ∧ win0_5.xsize (grid0.coords t) (1 : Fin 3) = 8 ∧ win0_5.xsize (grid0.coords t) (2 : Fin 3) = 128 :=
  (by decide +kernel : ∀ t : Fin grid0.N, win0_5.xsize (grid0.coords t) (0 : Fin 3) = 1 ∧ win0_5.xsize (grid0.coords t) (1 : Fin 3) = 8 ∧ win0_5.xsize (grid0.coords t) (2 : Fin 3) = 128)
theorem wext6 : ∀ t : Fin cfg0.N, win0_6.xsize (grid0.coords t) (0 : Fin 3) = 1 ∧ win0_6.xsize (grid0.coords t) (1 : Fin 3) = 8 ∧ win0_6.xsize (grid0.coords t) (2 : Fin 3) = 128 :=
  (by decide +kernel : ∀ t : Fin grid0.N, win0_6.xsize (grid0.coords t) (0 : Fin 3) = 1 ∧ win0_6.xsize (grid0.coords t) (1 : Fin 3) = 8 ∧ win0_6.xsize (grid0.coords t) (2 : Fin 3) = 128)

/-- The first output array: at every entry of slab i, the sum over the eight tiles of row i of the tiles' sums of
    selected pair terms. -/
def numArr : S8x8x128.Idx → EReal :=
  fun y => ∑ j : Fin 8, Cert.Spec.tileNum (sArr m c) (tArr m c) (adjArr m c) ⟨(y 0).val, (y 0).isLt⟩ j
/-- The second output array: likewise, of the tiles' sums of adjacency entries. -/
def denArr : S8x8x128.Idx → EReal :=
  fun y => ∑ j : Fin 8, Cert.Spec.tileDen (adjArr m c) ⟨(y 0).val, (y 0).isLt⟩ j

/-- The last tile of row r of tiles. -/
def lastOf (r : Fin 8) : Fin cfg0.N := ⟨8 * r.val + 7, by have := r.isLt; have : cfg0.N = 64 := N_0; omega⟩

/-- What a write-back of the first output writes is its block of numArr. -/
theorem flushed5_eq (t : Fin cfg0.N) (hf : (cfg0.win 5).flush t = true) :
    (dats m 0 c).flushed 5 t = ((cfg0.win 5).blk t).view.read (Elt Ideal) (numArr m c) := by
  have h1 : t.val % 8 = 7 := (flush0_5 t).mp hf
  funext x
  show (dats m 0 c).after 5 t _ = _
  rw [after0_5, (out_last_eq m c t h1 _).1, View.read_apply]
  show _ = numArr m c _
  unfold numArr
  refine Finset.sum_congr rfl fun j _ => ?_
  congr 1
  apply Fin.ext
  show t.val / 8 = win0_5.index t 0 * 1 + 1 * (x 0).val
  have hx : (x 0).val < 1 := lt_of_lt_of_eq (x 0).isLt (wext5 t).1
  rw [(widx5 t).1]
  omega

theorem flushed6_eq (t : Fin cfg0.N) (hf : (cfg0.win 6).flush t = true) :
    (dats m 0 c).flushed 6 t = ((cfg0.win 6).blk t).view.read (Elt Ideal) (denArr m c) := by
  have h1 : t.val % 8 = 7 := (flush0_6 t).mp hf
  funext x
  show (dats m 0 c).after 6 t _ = _
  rw [after0_6, (out_last_eq m c t h1 _).2, View.read_apply]
  show _ = denArr m c _
  unfold denArr
  refine Finset.sum_congr rfl fun j _ => ?_
  congr 1
  apply Fin.ext
  show t.val / 8 = win0_6.index t 0 * 1 + 1 * (x 0).val
  have hx : (x 0).val < 1 := lt_of_lt_of_eq (x 0).isLt (wext6 t).1
  rw [(widx6 t).1]
  omega

/-- THE FIRST OUTPUT ARRAY after the region: every entry is in the block of the last tile of its slab's row of tiles. -/
theorem numArr_final : (dats m 0 c).arrAt 5 cfg0.N = numArr m c :=
  (dats m 0 c).arrAt_eq_of_cover 5 (numArr m c) (flushed5_eq m c) fun i => by
    have hi0 : (i 0 : Nat) < 8 := (i 0).isLt
    have hi1 : (i 1 : Nat) < 8 := (i 1).isLt
    have hi2 : (i 2 : Nat) < 128 := (i 2).isLt
    have hd : (lastOf ⟨(i 0 : Nat), hi0⟩).val / 8 = (i 0 : Nat) := by show (8 * (i 0 : Nat) + 7) / 8 = _; omega
    refine ⟨lastOf ⟨(i 0 : Nat), hi0⟩, (flush0_5 _).mpr (by show (8 * (i 0 : Nat) + 7) % 8 = 7; omega), ?_⟩
    show i ∈ ((View.whole main_v16_0).slice (win0_5.rect (lastOf ⟨(i 0 : Nat), hi0⟩))).set
    rw [View.set_slice_whole, Rect.mem_set_unit]
    intro a
    match a with
    | ⟨0, _⟩ =>
      show win0_5.index (lastOf ⟨(i 0 : Nat), hi0⟩) 0 * 1 ≤ (i 0 : Nat) ∧ (i 0 : Nat) < win0_5.index (lastOf ⟨(i 0 : Nat), hi0⟩) 0 * 1 + win0_5.xsize (grid0.coords (lastOf ⟨(i 0 : Nat), hi0⟩)) 0
      rw [(widx5 _).1, (wext5 _).1, hd]; omega
    | ⟨1, _⟩ =>
      show win0_5.index (lastOf ⟨(i 0 : Nat), hi0⟩) 1 * 8 ≤ (i 1 : Nat) ∧ (i 1 : Nat) < win0_5.index (lastOf ⟨(i 0 : Nat), hi0⟩) 1 * 8 + win0_5.xsize (grid0.coords (lastOf ⟨(i 0 : Nat), hi0⟩)) 1
      rw [(widx5 _).2.1, (wext5 _).2.1]; omega
    | ⟨2, _⟩ =>
      show win0_5.index (lastOf ⟨(i 0 : Nat), hi0⟩) 2 * 128 ≤ (i 2 : Nat) ∧ (i 2 : Nat) < win0_5.index (lastOf ⟨(i 0 : Nat), hi0⟩) 2 * 128 + win0_5.xsize (grid0.coords (lastOf ⟨(i 0 : Nat), hi0⟩)) 2
      rw [(widx5 _).2.2, (wext5 _).2.2]; omega

/-- THE SECOND OUTPUT ARRAY after the region. -/
theorem denArr_final : (dats m 0 c).arrAt 6 cfg0.N = denArr m c :=
  (dats m 0 c).arrAt_eq_of_cover 6 (denArr m c) (flushed6_eq m c) fun i => by
    have hi0 : (i 0 : Nat) < 8 := (i 0).isLt
    have hi1 : (i 1 : Nat) < 8 := (i 1).isLt
    have hi2 : (i 2 : Nat) < 128 := (i 2).isLt
    have hd : (lastOf ⟨(i 0 : Nat), hi0⟩).val / 8 = (i 0 : Nat) := by show (8 * (i 0 : Nat) + 7) / 8 = _; omega
    refine ⟨lastOf ⟨(i 0 : Nat), hi0⟩, (flush0_6 _).mpr (by show (8 * (i 0 : Nat) + 7) % 8 = 7; omega), ?_⟩
    show i ∈ ((View.whole main_v16_1).slice (win0_6.rect (lastOf ⟨(i 0 : Nat), hi0⟩))).set
    rw [View.set_slice_whole, Rect.mem_set_unit]
    intro a
    match a with
    | ⟨0, _⟩ =>
      show win0_6.index (lastOf ⟨(i 0 : Nat), hi0⟩) 0 * 1 ≤ (i 0 : Nat) ∧ (i 0 : Nat) < win0_6.index (lastOf ⟨(i 0 : Nat), hi0⟩) 0 * 1 + win0_6.xsize (grid0.coords (lastOf ⟨(i 0 : Nat), hi0⟩)) 0
      rw [(widx6 _).1, (wext6 _).1, hd]; omega
    | ⟨1, _⟩ =>
      show win0_6.index (lastOf ⟨(i 0 : Nat), hi0⟩) 1 * 8 ≤ (i 1 : Nat) ∧ (i 1 : Nat) < win0_6.index (lastOf ⟨(i 0 : Nat), hi0⟩) 1 * 8 + win0_6.xsize (grid0.coords (lastOf ⟨(i 0 : Nat), hi0⟩)) 1
      rw [(widx6 _).2.1, (wext6 _).2.1]; omega
    | ⟨2, _⟩ =>
      show win0_6.index (lastOf ⟨(i 0 : Nat), hi0⟩) 2 * 128 ≤ (i 2 : Nat) ∧ (i 2 : Nat) < win0_6.index (lastOf ⟨(i 0 : Nat), hi0⟩) 2 * 128 + win0_6.xsize (grid0.coords (lastOf ⟨(i 0 : Nat), hi0⟩)) 2
      rw [(widx6 _).2.2, (wext6 _).2.2]; omega

end Arrays

end Cert.KernelIdeal.Val

end
-- ==== Proof.KILaunch.lean ====
/-
  The frame of the edge-loss kernel, third part: the launch.

  The pipeline's seven windows stand on six arrays: the scaled difference d / 8 is handed to the kernel twice, as
  the row block and as the column block of a tile. The launch theorem for windows that may share arrays asks how
  the buffers behind the arrays, each whole, make the proof data's arrays: the shared array's points-to splits
  into its two half shares, one per window (both windows only read it), and every other array is its window's
  (`arrays_of_bufs`, an equivalence: at the region's exit the two halves, holding the same unchanged contents,
  join back). After the region @main goes on with a line of host operations that reads the two output arrays and
  writes fresh scalars: at the exit the arrays and the bypassing buffers are again every unscoped buffer, whole, so
  the line runs as the line before the region does (`htail`). From the run: the frame claim, at any float
  instance.
-/
import proofs.«117120_j68917045231788_2_alg».proof.Proof.KIFrame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shares, and the arrays from the buffers behind them -/

theorem share0_0 (c : Dev nD) : (dats m 0 c).share (0 : Fin 7) = fullShare.left := by
  unfold Dat.share; rw [if_neg (by decide)]; dsimp only [dats]
theorem share0_1 (c : Dev nD) : (dats m 0 c).share (1 : Fin 7) = fullShare.right := by
  unfold Dat.share; rw [if_neg (by decide)]; dsimp only [dats]
theorem share0_2 (c : Dev nD) : (dats m 0 c).share (2 : Fin 7) = fullShare := by
  unfold Dat.share; rw [if_neg (by decide)]; dsimp only [dats]
theorem share0_3 (c : Dev nD) : (dats m 0 c).share (3 : Fin 7) = fullShare := by
  unfold Dat.share; rw [if_neg (by decide)]; dsimp only [dats]
theorem share0_4 (c : Dev nD) : (dats m 0 c).share (4 : Fin 7) = fullShare := by
  unfold Dat.share; rw [if_neg (by decide)]; dsimp only [dats]
theorem share0_5 (c : Dev nD) : (dats m 0 c).share (5 : Fin 7) = fullShare := by
  unfold Dat.share; rw [if_pos (by decide)]
theorem share0_6 (c : Dev nD) : (dats m 0 c).share (6 : Fin 7) = fullShare := by
  unfold Dat.share; rw [if_pos (by decide)]

/-- The distinct buffers behind the seven windows' arrays, conjoined one by one (the array behind windows 0 and 1
    appears once). -/
theorem bigSep_arrs {M : Type} [URA M] (Φ : Ref sig .tc → sProp M) :
    bigSep (Finset.univ.image (Pipeline.arrRef spec0)) Φ
      = iprop(Φ main_v6 ∗ Φ main_v13 ∗ Φ main_v15 ∗ Φ main_arg2 ∗ Φ main_v16_0 ∗ Φ main_v16_1) :=
  bigSep_eq_bigSepL_of_eq [main_v6, main_v13, main_v15, main_arg2, main_v16_0, main_v16_1] (by decide) (by decide) Φ

set_option maxHeartbeats 2000000 in
/-- The buffers behind the windows' arrays, each whole at the full share at contents W, ARE the proof data's
    arrays at any contents that agree with W: the one array behind windows 0 and 1 splits into its two halves
    (and the halves, holding the same contents, join back); every other array is its window's. -/
theorem arrays_of_bufs (c : Dev nD) (W : (b : Ref sig .tc) → Buf (Elt F) ((c.tc : Thread nD τ).loc b))
    (Fw : (w : Fin cfg0.W) → Buf (Elt F) ((cfg0.win w).arr.view.loc (c.tc : Thread nD τ))) (hF : ∀ w, Fw w = W (Pipeline.arrRef spec0 w)) :
    (Pipeline.arrBufs spec0 c W : sProp 𝕄) ⊣⊢ (dats m 0 c).arrays Fw := by
  unfold Pipeline.arrBufs Dat.arrays
  rw [bigSep_W0, bigSep_arrs]
  rw [hF 0, hF 1, hF 2, hF 3, hF 4, hF 5, hF 6]
  simp only [View.set_whole]
  refine ⟨?_, ?_⟩
  · iintro ⟨H6, H13, H15, H2, Ho0, Ho1⟩
    ihave Hs := (pointsTo_share (PosShare.mem_left_op_right fullShare)).1 $$ H6
    icases Hs with ⟨Hl, Hr⟩
    isplitl [Hl]; · rw [share0_0]; iexact Hl
    isplitl [Hr]; · rw [share0_1]; iexact Hr
    isplitl [H13]; · rw [share0_2]; iexact H13
    isplitl [H15]; · rw [share0_3]; iexact H15
    isplitl [H2]; · rw [share0_4]; iexact H2
    isplitl [Ho0]; · rw [share0_5]; iexact Ho0
    rw [share0_6]; iexact Ho1
  · rw [share0_0, share0_1]
    iintro ⟨Hl, Hr, H13, H15, H2, Ho0, Ho1⟩
    isplitl [Hl Hr]
    · iapply (pointsTo_share (PosShare.mem_left_op_right fullShare)).2
      isplitl [Hl]; · iexact Hl
      iexact Hr
    isplitl [H13]; · rw [share0_2]; iexact H13
    isplitl [H15]; · rw [share0_3]; iexact H15
    isplitl [H2]; · rw [share0_4]; iexact H2
    isplitl [Ho0]; · rw [share0_5]; iexact Ho0
    rw [share0_6]; iexact Ho1

/-! ## The region's exit and the line of host operations after it -/

/-- An input window's array is never written: it ends as the region found it. -/
theorem arrAt_in0 (c : Dev nD) (w : Fin cfg0.W) (hin : (cfg0.win w).isOut = false) (n : ℕ) :
    (dats m 0 c).arrAt w n = V m c (Pipeline.arrRef spec0 w) :=
  ((dats m 0 c).arrAt_in w hin n).trans (A_eq m c w)

/-- The buffers' contents when the region is left: each window's array at its final contents, every other buffer as
    the region found it. -/
abbrev Wx (c : Dev nD) : Valuation τ sig (Elt F) :=
  Pipeline.withArrays spec0 c (V0 m c) (fun w => (dats m 0 c).arrAt w cfg0.N)

/-- Read at a window's array it is that array's final contents — also for the array two windows share, whose two
    windows end at the same (unchanged) contents. -/
theorem Wx_arr (c : Dev nD) (w : Fin cfg0.W) :
    Wx m c (Proc.devRef .tc (Pipeline.arrRef spec0 w)) = (dats m 0 c).arrAt w cfg0.N := by
  show Pipeline.withArrays spec0 c (V0 m c) (fun w => (dats m 0 c).arrAt w cfg0.N) (Proc.devRef .tc (Pipeline.arrRef spec0 w)) = _
  unfold Pipeline.withArrays
  have h : ∃ w', Proc.devRef .tc (Pipeline.arrRef spec0 w') = Proc.devRef (τ := τ) .tc (Pipeline.arrRef spec0 w) := ⟨w, rfl⟩
  rw [dif_pos h]
  suffices ∀ (w' : Fin cfg0.W) (e : Proc.devRef .tc (Pipeline.arrRef spec0 w') = Proc.devRef (τ := τ) .tc (Pipeline.arrRef spec0 w)),
      cast (congrArg (fun b' : DevRef τ sig => b'.ty.Contents (Elt F)) e) ((dats m 0 c).arrAt w' cfg0.N) = (dats m 0 c).arrAt w cfg0.N from this _ h.choose_spec
  intro w' e
  have e' : Pipeline.arrRef spec0 w' = Pipeline.arrRef spec0 w := Proc.devRef_injective _ e
  have h01 : (dats m 0 c).arrAt (0 : Fin 7) cfg0.N = (dats m 0 c).arrAt (1 : Fin 7) cfg0.N :=
    (arrAt_in0 m c 0 rfl _).trans (arrAt_in0 m c 1 rfl _).symm
  by_cases hw : w' = w
  · subst hw; exact cast_eq _ _
  · have hcases : (w' = 0 ∧ w = 1) ∨ (w' = 1 ∧ w = 0) :=
      (by decide : ∀ a b : Fin 7, Pipeline.arrRef spec0 a = Pipeline.arrRef spec0 b → a ≠ b → (a = 0 ∧ b = 1) ∨ (a = 1 ∧ b = 0)) w' w e' hw
    rcases hcases with ⟨rfl, rfl⟩ | ⟨rfl, rfl⟩
    · exact (cast_eq _ _).trans h01
    · exact (cast_eq _ _).trans h01.symm

/-- Read at a buffer that is no window's array it is the region-entry contents. -/
theorem Wx_rest (c : Dev nD) (b : Ref sig .tc) (hb : ∀ w, Pipeline.arrRef spec0 w ≠ b) :
    Wx m c (Proc.devRef .tc b) = V m c b :=
  Pipeline.withArrays_of_ne spec0 c (V0 m c) _ b hb

/-- The buffers' contents when @main returns: the second line of host operations applied at the region's exit. -/
abbrev Wf (c : Dev nD) : Valuation τ sig (Elt F) := StableHlo.after ([hostOps1] : List (List (HloOp τ sig (Elt F)))).flatten (Wx m c)

theorem sfx_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- The second line writes no array of the pipeline. -/
theorem sfx_keeps : ∀ op ∈ ([hostOps1] : List (List (HloOp τ sig (Elt F)))).flatten, ∀ w, Proc.devRef .tc (Pipeline.arrRef spec0 w) ∉ op.writes := by
  intro op hop
  simp only [hostOps1, List.flatten_cons, List.flatten_nil, List.append_nil, List.mem_cons, List.mem_nil_iff, or_false] at hop
  rcases hop with rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- At the return each window's array still holds its final contents. -/
theorem Wf_arr (c : Dev nD) (w : Fin cfg0.W) :
    Wf m c (Proc.devRef .tc (Pipeline.arrRef spec0 w)) = (dats m 0 c).arrAt w cfg0.N :=
  (StableHlo.after_of_forall_not_mem _ _ fun op hop => sfx_keeps op hop w).trans (Wx_arr m c w)

/-- What bypasses the region: every unscoped buffer that is no window's array, at the region-entry contents; and the
    same buffers when @main returns. -/
abbrev Zin (c : Dev nD) : sProp 𝕄 := Pipeline.unscopedRestP Pipeline.Prefetch.none spec0 c (V m c)
abbrev Zout (c : Dev nD) : sProp 𝕄 := Pipeline.unscopedRestP Pipeline.Prefetch.none spec0 c (fun b => Wf m c b)

set_option maxHeartbeats 2000000 in
/-- THE LINE AFTER THE REGION. At the region's exit the windows' arrays (the shared one in its two halves) and the
    bypassing buffers are together every unscoped buffer, whole, at `Wx`; the line runs within them and leaves them at
    `Wf`, where the arrays still hold their final contents and split back among the windows. -/
theorem htail (c : Dev nD) (Q' : PUnit → sProp 𝕄) :
    iprop((iprop((dats m 0 c).arrays (fun w => (dats m 0 c).arrAt w cfg0.N) ∗ Zout m c) -∗ Q' ⟨⟩)
        ∗ boundary (c.tc : Thread nD τ) ∗ (dats m 0 c).arrays (fun w => (dats m 0 c).arrAt w cfg0.N) ∗ Zin m c)
      ⊢ wp frame (wpE (Pipeline.defs (fun q => (cfgs q).toPCfg (Val := Elt F)) defs₀) (Variants.lift Variants.none) (c.tc : Thread nD τ) none) Set.univ
          (Pipeline.chain (([hostOps1] : List (List (HloOp τ sig (Elt F)))).map StableHlo.seq)) Q' := by
  have hrun := Pipeline.wp_seqs_then (Ix := Unit) (Name := ℕ) (U := UR sig nD τ) (Lvl := ℕ) (fun q => (cfgs q).toPCfg (Val := Elt F)) defs₀ Variants.none c (Pipeline.ucRefs τ sig) [] [hostOps1] sfx_sub sfx_fresh (Wx m c) (K := Q')
  rw [← Pipeline.unscopedBufs_held (Ix := Unit) (Name := ℕ) (U := UR sig nD τ) (Lvl := ℕ) c (Wx m c),
    ← Pipeline.unscopedBufs_held (Ix := Unit) (Name := ℕ) (U := UR sig nD τ) (Lvl := ℕ) c (StableHlo.after ([hostOps1] : List (List (HloOp τ sig (Elt F)))).flatten (Wx m c)),
    Pipeline.unscopedBufs_split₀ cfgs 0 winFacts₀0.arr_unscoped c, Pipeline.unscopedBufs_split₀ cfgs 0 winFacts₀0.arr_unscoped c,
    List.append_nil] at hrun
  have hZ : (Zin m c : sProp 𝕄) = Pipeline.unscopedRest spec0 c (fun b => Wx m c b) := by
    unfold Zin; rw [Pipeline.unscopedRestP_none]; unfold Pipeline.unscopedRest
    exact bigSep_congr fun b hb => by
      dsimp only
      rw [Wx_rest m c b fun w e => (Finset.mem_sdiff.mp hb).2 (Finset.mem_image.mpr ⟨w, Finset.mem_univ _, e⟩)]
  have hZ' : (Zout m c : sProp 𝕄) = Pipeline.unscopedRest spec0 c (fun b => Wf m c b) := by
    unfold Zout; rw [Pipeline.unscopedRestP_none]
  have hA := (arrays_of_bufs m c (fun b => Wx m c b) (fun w => (dats m 0 c).arrAt w cfg0.N) (fun w => (Wx_arr m c w).symm)).2
  have hA' := (arrays_of_bufs m c (fun b => Wf m c b) (fun w => (dats m 0 c).arrAt w cfg0.N) (fun w => (Wf_arr m c w).symm)).1
  rw [hZ, hZ']
  iintro ⟨Hk, Hb, HA, HZ⟩
  ihave HAb := hA $$ HA
  iapply hrun $$ [Hb HAb HZ]
  · isplitl [Hb]; · iexact Hb
    isplitl [HAb]; · iexact HAb
    iexact HZ
  iintro Hb
  rw [Pipeline.chain_nil, wp_pure]
  imodintro
  iapply Hk
  icases Hb with ⟨-, HAb, HZ⟩
  isplitl [HAb]; · iapply hA'; iexact HAb
  iexact HZ

/-! ## The run of @main -/

/-- What the run of @main ends with: every window's array at the contents the proof data computes, every other
    unscoped buffer at what the second line of host operations leaves. -/
def RunPost (r : PUnit × MemSt nD τ sig (Elt F)) : Prop :=
  ∀ c : Dev nD, (∀ w, r.2.mem ((spec0 w).arr.view.loc (c.tc : Thread nD τ)) = (dats m 0 c).arrAt w cfg0.N)
    ∧ ∀ b ∈ Pipeline.restRefsP sig Pipeline.Prefetch.none spec0, r.2.mem ((c.tc : Thread nD τ).loc b) = Wf m c b

set_option maxHeartbeats 4000000 in
set_option backward.isDefEq.respectTransparency.types false in
/-- At the compiled mesh, from any memory with zero counters: every weakly fair execution of @main terminates,
    nothing faulting, in a state satisfying `RunPost`. The launch is the library's for one region continued by host
    operations, taken by its fields: the windows' layout with the arrays NOT required distinct, the split of the
    shared array's share (`arrays_of_bufs`), the invariant entered from and returned to the class's, the line after
    the region (`htail`). -/
theorem run_main : θ_run defs (onTc (τ := τ) (main (F := F))) (s₀ m ρ) (RunPost m) :=
  Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain (([hostOps1] : List (List (HloOp τ sig (Elt F)))).map StableHlo.seq)) (fun c => (body_obligation m c).loose)
    block_pos0 arr_whole0 stage_whole0 (fun _ _ => rfl)
    (G := fun _ => iprop(emp)) (u₀ := initOf (Pipeline.cells _ cellOf_inj) (Pipeline.launchToks _ cellOf_inj))
    (hu₀ := by
      iintro Hu; imodintro
      isplitl [Hu]; · iapply (show (ownU _ : sProp 𝕄) ⊢ BI.own (emb₁ (initOf (Pipeline.cells _ cellOf_inj) (Pipeline.launchToks _ cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => (arrays_of_bufs m c (V m c) (fun w => (dats m 0 c).arrAt w 0)
      (fun w => (show (dats m 0 c).arrAt w 0 = (dats m 0 c).A w from rfl).trans (A_eq m c w))).1)
    (hpf := fun _ k => k.elim0)
    (X := fun c => iprop(∃ r, prngReg c r)) (Y := fun c => iprop(∃ r, prngReg c r))
    (Z := Zin m) (Z' := Zout m)
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => ∀ b ∈ Pipeline.restRefsP sig Pipeline.Prefetch.none spec0, s.mem ((c.tc : Thread nD τ).loc b) = Wf m c b)
    (hY := fun c s' => by
      iintro ⟨-, HU, HSI⟩
      unfold Zout Pipeline.unscopedRestP
      imodintro
      iapply (pointsTo_read_all (Pipeline.restRefsP sig Pipeline.Prefetch.none spec0) (fun b => (c.tc : Thread nD τ).loc b) (fun b => Wf m c b) s')
      isplitl [HU] <;> iassumption)
    (hQ := fun s h c => ⟨(h c).1, (h c).2.2⟩)

/-! ## The frame -/

/-- A bypassing buffer: unscoped, no window's array, and (nothing being prefetched) no table. -/
theorem mem_rest (b : Ref sig .tc) (hs : b.isScoped = false) (ha : ∀ w, (spec0 w).arr.view.ref ≠ b) :
    b ∈ Pipeline.restRefsP sig Pipeline.Prefetch.none spec0 :=
  Finset.mem_sdiff.mpr ⟨Pipeline.mem_restRefs_of b hs ha, fun h => by
    obtain ⟨k, -, -⟩ := Finset.mem_image.mp h; exact k.elim0⟩

/-- Neither line of host operations writes an argument array. -/
theorem Wf_main_arg0 (c : Dev nD) : Wf m c (Proc.devRef .tc main_arg0) = m ((c : Thread nD τ).loc main_arg0) :=
  (StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans
    ((Wx_rest m c main_arg0 (by decide)).trans (V_main_arg0 m c))

theorem Wf_main_arg1 (c : Dev nD) : Wf m c (Proc.devRef .tc main_arg1) = m ((c : Thread nD τ).loc main_arg1) :=
  (StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans
    ((Wx_rest m c main_arg1 (by decide)).trans (V_main_arg1 m c))

/-- THE FRAME: @main runs to the end, nothing faulting, and its three argument arrays end as launched — the first
    two bypass the region and no host operation writes them; the third is an input window's array, never written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (mem_rest main_arg0 (by decide) (by decide))).trans (Wf_main_arg0 m c),
     ((h c).2 main_arg1 (mem_rest main_arg1 (by decide) (by decide))).trans (Wf_main_arg1 m c),
     ((h c).1 4).trans ((arrAt_in0 m c 4 rfl _).trans (V_main_arg2 m c))⟩) (run_main m ρ)

end Cert.KernelIdeal.Hand

end
-- ==== Proof.KITail.lean ====
import proofs.«117120_j68917045231788_2_alg».proof.Proof.KILaunch
import proofs.«117120_j68917045231788_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Tail

open Idealize.ShloMosaic Idealize.ShloMosaic.TcCoe Idealize.ShloMosaic.ValueIdx Idealize.SL.Sem
open Idealize.ShloMosaic.StableHlo
open Cert.KernelIdeal Cert.KernelIdeal.Gen
open scoped BigOperators

variable (m : (ℓ : Loc nD τ sig) → Buf (Elt Ideal) ℓ) (c : Dev nD)

/-! ## The host operations after the region, over variable arrays

  After the region the host takes, of each of the two 8 x 8 x 128 output arrays, the entries (i, 0, 0) for the 8
  row tiles i, sums them from zero (the numerator and the denominator), and returns
  1 * ( node + numerator / (denominator + eps) ). The whole line is named here as one function of the two arrays
  and the node term's array, and read at its one index. -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section Terms
variable (o5 o6 : FVec Ideal S8x8x128 .f32) (n3 : FVec Ideal S_ .f32)

/-- The sum from zero of the entries (i, 0, 0) of an output array. -/
def partT (o : FVec Ideal S8x8x128 .f32) : FVec Ideal S_ .f32 :=
  Host.reduceAdd (shapeCast S8 (extractStridedSlice S8x1x1 ![0, 0, 0] o slices_S8x8x128_S8x1x1_0_0_0) shapeCasts_S8x1x1_S8)
    (constant (F := Ideal) S_ .f32 0x00000000#32) reducesTo_S8_S_d0 h_S_

/-- The returned scalar's array. -/
def tailT : FVec Ideal S_ .f32 :=
  mulf (constant (F := Ideal) S_ .f32 0x3F800000#32)
    (addf n3 (Host.divf (partT o5) (addf (partT o6) (constant (F := Ideal) S_ .f32 0x358637BD#32))))

/-- Entry i of the slice, recast to a vector of 8, is the array's entry (i, 0, 0). -/
theorem slice_apply (o : FVec Ideal S8x8x128 .f32) (i : Fin 8) :
    shapeCast S8 (extractStridedSlice S8x1x1 ![0, 0, 0] o slices_S8x8x128_S8x1x1_0_0_0) shapeCasts_S8x1x1_S8 (ix1 i)
      = o (ix3 i (0 : Fin 8) (0 : Fin 128)) := by
  refine (shapeCast_apply _ shapeCasts_S8x1x1_S8 (ix1 i) (ix3 i (0 : Fin 1) (0 : Fin 1)) (by
    rw [Shape.rowMajor_val_three, Shape.rowMajor_val_one]
    show (i.val * 1 + 0) * 1 + 0 = i.val
    omega)).trans ?_
  exact extractStridedSlice_apply ![0, 0, 0] o slices_S8x8x128_S8x1x1_0_0_0 (ix3 i (0 : Fin 1) (0 : Fin 1))
    (ix3 i (0 : Fin 8) (0 : Fin 128)) (fun a => by
      match a with
      | ⟨0, _⟩ => show i.val = 0 + i.val; omega
      | ⟨1, _⟩ => rfl
      | ⟨2, _⟩ => rfl)

theorem partT_apply (o : FVec Ideal S8x8x128 .f32) (j : S_.Idx) :
    partT o j = ∑ i : Fin 8, o (ix3 i (0 : Fin 8) (0 : Fin 128)) := by
  unfold partT
  generalize hy : shapeCast S8 (extractStridedSlice S8x1x1 ![0, 0, 0] o slices_S8x8x128_S8x1x1_0_0_0) shapeCasts_S8x1x1_S8 = y
  simp only [Host.reduceAdd, Ideal.hostReduceAdd_def]
  rw [Ideal.hostReduceAdd_total reducesTo_S8_S_d0 (fun b => b.elim0) y _ j]
  rw [constant_apply, Ideal.ofBits_zero_f32, zero_add, sum_idx1]
  refine Finset.sum_congr rfl fun i _ => ?_
  rw [← hy]
  exact slice_apply o i

theorem tailT_apply (j : S_.Idx) :
    tailT o5 o6 n3 j = Cert.Spec.result (n3 j) (∑ i : Fin 8, o5 (ix3 i (0 : Fin 8) (0 : Fin 128)))
      (∑ i : Fin 8, o6 (ix3 i (0 : Fin 8) (0 : Fin 128))) := by
  unfold tailT Host.divf
  rw [mulf_apply, addf_apply, Ideal.hostDivf_def, addf_apply, partT_apply, partT_apply]
  rfl

end Terms

/-! ## The result buffer when @main returns -/

/-- The result buffer holds the line's term of the two output arrays and the node term's buffer as the region
    left them. -/
theorem Wf_v26 : (Hand.Wf m c (Proc.devRef .tc main_v26) : S_.Idx → EReal)
    = tailT (Hand.Wx m c (Proc.devRef .tc main_v16_0)) (Hand.Wx m c (Proc.devRef .tc main_v16_1))
        (Hand.Wx m c (Proc.devRef .tc main_v3)) := by
  dsimp only [Hand.Wf]
  simp only [hostOps1, List.flatten_cons, List.flatten_nil, List.append_nil]
  after_results
  rfl

/-- The returned scalar: 1 * ( node + (sum of the numerator's 8 partial results) / ((sum of the denominator's 8) + eps) ). -/
theorem result_value : Hand.Wf m c (Proc.devRef .tc main_v26) ix0
    = Cert.Spec.result (Hand.V m c main_v3 ix0)
        (∑ i : Fin 8, (Hand.dats m 0 c).arrAt 5 cfg0.N (ix3 i (0 : Fin 8) (0 : Fin 128)))
        (∑ i : Fin 8, (Hand.dats m 0 c).arrAt 6 cfg0.N (ix3 i (0 : Fin 8) (0 : Fin 128))) := by
  have h5 : (Hand.Wx m c (Proc.devRef .tc main_v16_0) : S8x8x128.Idx → EReal) = (Hand.dats m 0 c).arrAt 5 cfg0.N :=
    Hand.Wx_arr m c 5
  have h6 : (Hand.Wx m c (Proc.devRef .tc main_v16_1) : S8x8x128.Idx → EReal) = (Hand.dats m 0 c).arrAt 6 cfg0.N :=
    Hand.Wx_arr m c 6
  have h3 : (Hand.Wx m c (Proc.devRef .tc main_v3) : S_.Idx → EReal) = Hand.V m c main_v3 :=
    Hand.Wx_rest m c main_v3 (by decide)
  refine (congrFun (Wf_v26 m c) ix0).trans ?_
  rw [h5, h6, h3]
  exact tailT_apply _ _ _ ix0

end Cert.KernelIdeal.Tail

end
-- ==== Proof.Algebra.lean ====
import proofs.«117120_j68917045231788_2_alg».proof.Proof.Spec
import Mathlib

noncomputable section

namespace Cert.Algebra

open Idealize.ShloMosaic Idealize.ShloMosaic.ValueIdx
open scoped BigOperators
open Cert.Spec

/-! ## The float literals as reals -/

theorem cZero_eq : cZero = 0 := by
  simp [Ideal.ofBits, Ideal.ieee]

theorem cEighth_eq : cEighth = ((1 / 8 : ℝ) : EReal) := by
  simp [Ideal.ofBits, Ideal.ieee, -EReal.coe_mul]; norm_num

theorem cHalf_eq : cHalf = ((1 / 2 : ℝ) : EReal) := by
  simp [Ideal.ofBits, Ideal.ieee, -EReal.coe_mul]; norm_num

theorem cTwo_eq : cTwo = ((2 : ℝ) : EReal) := by
  simp [Ideal.ofBits, Ideal.ieee, -EReal.coe_mul]; norm_num

theorem c128_eq : c128 = ((128 : ℝ) : EReal) := by
  simp [Ideal.ofBits, Ideal.ieee, -EReal.coe_mul]; norm_num

/-! ## Summing tile by tile

  A row index below 8192 is uniquely i * 1024 + p with i below 8 and p below 1024 (quotient and remainder by
  1024), so a sum over all rows is the sum over the tiles of the sums inside each tile; twice, for rows and
  columns, with one exchange of the two middle sums. -/

/-- (tile, position in the tile) to the row, with quotient and remainder as the inverse. -/
def tileEquiv : Fin 8 × Fin 1024 ≃ Fin 8192 where
  toFun x := tileRow x.1 x.2
  invFun r := (⟨r.val / 1024, by have := r.isLt; omega⟩, ⟨r.val % 1024, by omega⟩)
  left_inv := by
    rintro ⟨i, p⟩
    have hi := i.isLt
    have hp := p.isLt
    apply Prod.ext
    · apply Fin.ext
      show (i.val * 1024 + p.val) / 1024 = i.val
      omega
    · apply Fin.ext
      show (i.val * 1024 + p.val) % 1024 = p.val
      omega
  right_inv := by
    intro r
    apply Fin.ext
    show r.val / 1024 * 1024 + r.val % 1024 = r.val
    omega

theorem sum_rows {M : Type*} [AddCommMonoid M] (g : Fin 8192 → M) :
    ∑ i : Fin 8, ∑ p : Fin 1024, g (tileRow i p) = ∑ r : Fin 8192, g r := by
  rw [← Fintype.sum_equiv tileEquiv (fun x => g (tileRow x.1 x.2)) g (fun _ => rfl), Fintype.sum_prod_type]

theorem sum_tiles {M : Type*} [AddCommMonoid M] (f : Fin 8192 → Fin 8192 → M) :
    ∑ i : Fin 8, ∑ j : Fin 8, ∑ p : Fin 1024, ∑ q : Fin 1024, f (tileRow i p) (tileRow j q)
      = ∑ r : Fin 8192, ∑ c : Fin 8192, f r c := by
  rw [← sum_rows (fun r => ∑ c : Fin 8192, f r c)]
  refine Finset.sum_congr rfl (fun i _ => ?_)
  rw [Finset.sum_comm]
  refine Finset.sum_congr rfl (fun p _ => ?_)
  exact sum_rows (fun c => f (tileRow i p) c)

/-! ## The denominator -/

theorem den_eq (adj : Cert.Spec.Adj) : Cert.Spec.denK adj = Cert.Spec.denR adj := by
  unfold Cert.Spec.denK Cert.Spec.denR Cert.Spec.tileDen
  exact sum_tiles (fun r c => adj (ix2 r c))

/-! ## The numerator

  Pointwise, "a where x > 0, else zero" is the 0/1 mask of x > 0 times a, whatever a is (zero times anything is
  zero in the extended reals). Where the mask is one the two pair terms must agree; for real rows this is the
  identity  1/2 |x/8|^2 + 1/2 |y/8|^2 - <x/8, y/8> = (|x|^2 + |y|^2 - 2 <x, y>) / 128. -/

/-- Selecting a where x > 0 and zero elsewhere is multiplying a by the 0/1 mask. -/
theorem sel_mask (x a : EReal) : selK x a = maskR x * a := by
  unfold selK maskR Scalar.select Ideal.cmp
  by_cases h : cZero < x
  · simp [h]
  · simp [h]
    exact cZero_eq

/-- The coercion of a finite real sum is the sum of the coercions. -/
theorem coe_sum {ι : Type*} (S : Finset ι) (f : ι → ℝ) :
    ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-- The identity between the two pair terms, over the reals. -/
theorem real_pair {ι : Type*} (S : Finset ι) (x y : ι → ℝ) :
    (1 / 2 * ∑ k ∈ S, (x k * (1 / 8)) * (x k * (1 / 8)) + 1 / 2 * ∑ k ∈ S, (y k * (1 / 8)) * (y k * (1 / 8)))
        - ∑ k ∈ S, (x k * (1 / 8)) * (y k * (1 / 8))
      = ((∑ k ∈ S, x k * x k + ∑ k ∈ S, y k * y k) - 2 * ∑ k ∈ S, x k * y k) * (1 / 128) := by
  simp only [Finset.mul_sum, Finset.sum_mul, ← Finset.sum_add_distrib, ← Finset.sum_sub_distrib]
  exact Finset.sum_congr rfl (fun k _ => by ring)

/-- For real rows the kernel's pair term is the reference's. -/
theorem pair_eq (s t : Cert.Spec.Nodes) (d : Fin 8192 → Fin 128 → ℝ)
    (hd : ∀ r k, diff s t r k = ((d r k : ℝ) : EReal)) (r c : Fin 8192) :
    pairK s t r c = pairR s t r c := by
  unfold pairK halfSq gramK scaled pairR Cert.Spec.sq Cert.Spec.gram
  rw [c128_eq, Ideal.div_coe (by norm_num : (128 : ℝ) ≠ 0), cEighth_eq, cHalf_eq, cTwo_eq]
  simp only [hd]
  simp only [← EReal.coe_mul, ← coe_sum, ← EReal.coe_add, ← EReal.coe_sub]
  congr 1
  exact real_pair _ _ _

theorem num_eq (s t : Cert.Spec.Nodes) (adj : Cert.Spec.Adj)
    (hs : ∀ i, ∃ r : ℝ, s i = (r : EReal)) (ht : ∀ i, ∃ r : ℝ, t i = (r : EReal)) :
    Cert.Spec.numK s t adj = Cert.Spec.numR s t adj := by
  choose a ha using hs
  choose b hb using ht
  have hd : ∀ r k, diff s t r k = (((a (ix2 r k) - b (ix2 r k)) : ℝ) : EReal) := by
    intro r k
    unfold diff
    rw [ha, hb, EReal.coe_sub]
  unfold Cert.Spec.numK Cert.Spec.numR Cert.Spec.tileNum
  rw [sum_tiles (fun r c => selK (adj (ix2 r c)) (pairK s t r c))]
  refine Finset.sum_congr rfl (fun r _ => Finset.sum_congr rfl (fun c _ => ?_))
  rw [sel_mask, pair_eq s t (fun r k => a (ix2 r k) - b (ix2 r k)) hd]

end Cert.Algebra

end
-- ==== Proof.Finite.lean ====
/-
  Finiteness of the arguments. The precondition says that |x| < +infinity holds at every entry of each of the three
  argument arrays: it is the conjunction, over the three arrays, of the conjunction over all entries of that
  comparison. Over the extended reals |x| is max x (-x) and +infinity is the top element, so the comparison holding
  at an entry says that the entry is neither the top nor the bottom element: it is a real number.
-/
import proofs.«117120_j68917045231788_2_alg».proof.Pre_finite_inputs
import proofs.«117120_j68917045231788_2_alg».proof.Proof.Gen.Pre_finite_inputs
import Idealize.ShloMosaic.Lib.ReduceAll
import Idealize.ShloMosaic.Lib.ValueIdx

noncomputable section

namespace Cert.Finite

open Idealize.ShloMosaic Cert.Pre_finite_inputs

/-- An extended real whose absolute value is below +infinity is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hlt : max x (-x) < ⊤ := by
    by_contra hn
    simp [Ideal.cmp, hn] at h
  induction x using EReal.rec with
  | bot => simp at hlt
  | coe r => exact ⟨r, rfl⟩
  | top => simp at hlt

/-- Under the precondition every entry of each of the three arguments is a real number. -/
theorem real_of_pre_all [Cert.Pre_finite_inputs.Facts] (x0 x1 : FVec Ideal S8192x128 .f32)
    (x2 : FVec Ideal S8192x8192 .f32) (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [Cert.Pre_finite_inputs.fn] at h0
  obtain ⟨h01, h2⟩ := IntOp.andi_eq_one.1 h0
  obtain ⟨hA, hB⟩ := IntOp.andi_eq_one.1 h01
  -- the scalar shape has one index
  haveI : Subsingleton S_.Idx := ⟨fun _ _ => funext fun d => d.elim0⟩
  exact ⟨fun i => real_of_abs_lt _ (Host.reduce_andi_all _ _ _ _ _ hA i),
    fun i => real_of_abs_lt _ (Host.reduce_andi_all _ _ _ _ _ hB i),
    fun i => real_of_abs_lt _ (Host.reduce_andi_all _ _ _ _ _ h2 i)⟩

/-- Under the precondition every entry of the two node arrays is a real number. -/
theorem real_of_pre [Cert.Pre_finite_inputs.Facts] (x0 x1 : FVec Ideal S8192x128 .f32)
    (x2 : FVec Ideal S8192x8192 .f32) (h : Cert.Pre_finite_inputs.fn (F := Ideal) x0 x1 x2 = fun _ => 1#1) :
    (∀ i, ∃ r : ℝ, x0 i = (r : EReal)) ∧ (∀ i, ∃ r : ℝ, x1 i = (r : EReal)) :=
  ⟨(real_of_pre_all x0 x1 x2 h).1, (real_of_pre_all x0 x1 x2 h).2.1⟩

/-- Under the precondition every entry of the adjacency array is a real number. -/
theorem real_of_pre_adj [Cert.Pre_finite_inputs.Facts] (x0 x1 : FVec Ideal S8192x128 .f32)
    (x2 : FVec Ideal S8192x8192 .f32) (h : Cert.Pre_finite_inputs.fn (F := Ideal) x0 x1 x2 = fun _ => 1#1) :
    ∀ i, ∃ r : ℝ, x2 i = (r : EReal) :=
  (real_of_pre_all x0 x1 x2 h).2.2

end Cert.Finite

end
-- ==== Proof.KIResult.lean ====
/-
  The idealized kernel's result: the scalar its run leaves, in the reference's spelling.

  After the region the two output arrays hold, in every entry of slab i, the sums over the eight tiles of row-tile
  i of the tile's numerator and denominator terms; the host operations after the region take entry (i, 0, 0) of each
  slab, add the eight, and form 1 * (node + N / (D + eps)). So the result is the loss with N and D summed tile by tile
  — the kernel's spelling — and, the node arrays being real-valued under the precondition, that is the reference's
  spelling (the algebra module): the same selection written as a mask, the same pair term with the factors 1/8 and
  1/2 gathered into one division by 128, the same sums regrouped.
-/
import proofs.«117120_j68917045231788_2_alg».proof.Defs
import proofs.«117120_j68917045231788_2_alg».proof.Proof.KIValue
import proofs.«117120_j68917045231788_2_alg».proof.Proof.KITail
import proofs.«117120_j68917045231788_2_alg».proof.Proof.Algebra
import proofs.«117120_j68917045231788_2_alg».proof.Proof.Finite

noncomputable section

namespace Cert.KernelIdeal.Result

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- Entry (i, 0, 0) of the numerator array, summed over the eight slabs, is the kernel's numerator; likewise the
    denominator. -/
theorem sum_numArr (c : Dev nD) :
    (∑ i : Fin 8, Val.numArr m c (ix3 i (0 : Fin 8) (0 : Fin 128))) = Cert.Spec.numK (Val.sArr m c) (Val.tArr m c) (Val.adjArr m c) := rfl
theorem sum_denArr (c : Dev nD) :
    (∑ i : Fin 8, Val.denArr m c (ix3 i (0 : Fin 8) (0 : Fin 128))) = Cert.Spec.denK (Val.adjArr m c) := rfl

/-- The result buffer when @main returns, for real-valued node arrays: the loss in the reference's spelling. -/
theorem kernel_value (c : Dev nD) (hs : ∀ i, ∃ r : ℝ, Val.sArr m c i = (r : EReal)) (ht : ∀ i, ∃ r : ℝ, Val.tArr m c i = (r : EReal)) :
    (Hand.Wf m c (Proc.devRef .tc main_v26) : S_.Idx → EReal)
      = fun _ => Cert.Spec.result (Cert.Spec.node (Val.sArr m c) (Val.tArr m c))
          (Cert.Spec.numR (Val.sArr m c) (Val.tArr m c) (Val.adjArr m c)) (Cert.Spec.denR (Val.adjArr m c)) := by
  funext i
  rw [eq_ix0 i, Tail.result_value m c, HostPre.v3_apply m c, Val.numArr_final m c, Val.denArr_final m c,
    sum_numArr m c, sum_denArr m c, Cert.Algebra.num_eq _ _ _ hs ht, Cert.Algebra.den_eq]

/-- THE KERNEL'S RUN: under the precondition every weakly fair execution of the idealized kernel's @main terminates,
    nothing faulting, with the result buffer at the loss (reference's spelling) of the argument arrays as launched, and
    the three argument arrays unchanged. -/
theorem kernel_run (hpre : Cert.Pre_KernelIdeal m) :
    θ_run (Cert.KernelIdeal.defs (F := Ideal)) (onTc (τ := τ) (main (F := Ideal))) ⟨m, fun _ => 0, ρ⟩ (fun r => ∀ c : Dev nD,
      r.2.mem ((c.tc : Thread nD τ).loc main_v26)
        = (fun _ => Cert.Spec.result (Cert.Spec.node (m ((c.tc : Thread nD τ).loc main_arg0)) (m ((c.tc : Thread nD τ).loc main_arg1)))
            (Cert.Spec.numR (m ((c.tc : Thread nD τ).loc main_arg0)) (m ((c.tc : Thread nD τ).loc main_arg1)) (m ((c.tc : Thread nD τ).loc main_arg2)))
            (Cert.Spec.denR (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v26 (Hand.mem_rest main_v26 (by decide) (by decide))).trans
        (kernel_value m c (Cert.Finite.real_of_pre _ _ _ (hpre c)).1 (Cert.Finite.real_of_pre _ _ _ (hpre c)).2),
     ((h c).2 main_arg0 (Hand.mem_rest main_arg0 (by decide) (by decide))).trans (Hand.Wf_main_arg0 m c),
     ((h c).2 main_arg1 (Hand.mem_rest main_arg1 (by decide) (by decide))).trans (Hand.Wf_main_arg1 m c),
     ((h c).1 4).trans ((Hand.arrAt_in0 m c 4 rfl _).trans (Hand.V_main_arg2 m c))⟩) (Hand.run_main (F := Ideal) m ρ)

end Cert.KernelIdeal.Result

end
-- ==== Proof.RefRun.lean ====
/-
  The reference program's run and its read-at-an-index lemmas, brought in for the modules that speak of the
  reference's result.
-/
import proofs.«117120_j68917045231788_2_alg».proof.Proof.Gen.ReferenceIdeal.Read
-- ==== Proof.RefSide.lean ====
/-
  The reference program's result is the specification's: read index by index, the value the reference leaves in its
  result is  1 * ( node + numR / (denR + eps) ), with
    node  the sum of d*d over every entry, from zero, divided by the number of entries,
    numR  the sum over all (r, c) of  mask(adj r c) * ((|d r|^2 + |d c|^2) - 2 <d r, d c>) / 128,
    denR  the sum of adj over all (r, c),
  where d = s - t. Each stage of the reference is read at one index built from literal coordinates: the row sums
  |d r|^2 (a sum over the 128 features, from zero), the products <d r, d c> (the contraction of d with its transpose,
  a sum over the 128 features), the two broadcasts of the row sums (along a row and along a column), the 0/1 mask of
  adj > 0, and the two sums over the whole 8192 x 8192 index set, which are double sums over the coordinates. Every
  float literal stays the word it is written as, except the zero a sum starts from, which is the real 0.
-/
import proofs.«117120_j68917045231788_2_alg».proof.Proof.RefRun
import proofs.«117120_j68917045231788_2_alg».proof.Proof.Spec

noncomputable section

namespace Cert.RefSide

open Idealize.ShloMosaic Idealize.ShloMosaic.TcCoe Idealize.SL.Sem Idealize.ShloMosaic.ValueIdx
open Cert.ReferenceIdeal Cert.ReferenceIdeal.Gen Cert.ReferenceIdeal.Read
open scoped BigOperators

variable (a0 a1 : FVec Ideal S8192x128 .f32) (a2 : FVec Ideal S8192x8192 .f32)

/-! ## The indices the layout operations read at, by coordinates -/

/-- Row r of the row sums, feature k: the entry (r, k). -/
theorem idx_sq (r : Fin 8192) (k : Fin 128) : idx_main_v6 (ix1 r) k = ix2 r k := by
  funext a; match a with | ⟨0, _⟩ => rfl | ⟨1, _⟩ => rfl

/-- The row sums broadcast along a row read, at (r, c), the row sum of r. -/
theorem idx_row (r c : Fin 8192) : idx_main_v9 (idx_main_v11 (ix2 r c)) = ix1 r := by
  funext a; match a with | ⟨0, _⟩ => rfl

/-- The row sums broadcast along a column read, at (r, c), the row sum of c. -/
theorem idx_col (r c : Fin 8192) : idx_main_v10 (idx_main_v12 (ix2 r c)) = ix1 c := by
  funext a; match a with | ⟨0, _⟩ => rfl

/-- The contraction's left operand at (r, c), feature k: the entry (r, k). -/
theorem idx_lhs (r c : Fin 8192) (k : Fin 128) : lidx_main_v8 (ix2 r c) k = ix2 r k := by
  funext a; match a with | ⟨0, _⟩ => rfl | ⟨1, _⟩ => rfl

/-- The contraction's right operand, the transpose, at (r, c), feature k: the entry (c, k). -/
theorem idx_rhs (r c : Fin 8192) (k : Fin 128) : idx_main_v7 (ridx_main_v8 (ix2 r c) k) = ix2 c k := by
  funext a; match a with | ⟨0, _⟩ => rfl | ⟨1, _⟩ => rfl

/-! ## The stages at an index -/

/-- d at (r, k). -/
theorem diff_at (r : Fin 8192) (k : Fin 128) :
    val_main_v4 (F := Ideal) a0 a1 (ix2 r k) = Cert.Spec.diff a0 a1 r k := rfl

/-- The row sum at r is |d r|^2: the sum from zero of d*d over the features. -/
theorem sq_at (r : Fin 8192) : val_main_v6 (F := Ideal) a0 a1 (ix1 r) = Cert.Spec.sq a0 a1 r := by
  rw [val_main_v6_apply, val_main_cst_1_apply, Ideal.ofBits_def, Ideal.ofBits_zero_f32, zero_add]
  refine Finset.sum_congr rfl fun k _ => ?_
  rw [val_main_v5_apply, Ideal.mulf_def, idx_sq, diff_at]

/-- The contraction at (r, c) is <d r, d c>. -/
theorem gram_at (r c : Fin 8192) : val_main_v8 (F := Ideal) a0 a1 (ix2 r c) = Cert.Spec.gram a0 a1 r c := by
  rw [val_main_v8_apply]
  refine Finset.sum_congr rfl fun k _ => ?_
  rw [val_main_v7_apply, idx_lhs, idx_rhs, diff_at, diff_at]

/-- The pair term at (r, c). -/
theorem pair_at (r c : Fin 8192) : val_main_v18 (F := Ideal) a0 a1 (ix2 r c) = Cert.Spec.pairR a0 a1 r c := by
  rw [val_main_v18_apply, val_main_v16_apply, val_main_v13_apply, val_main_v15_apply, val_main_v11_apply,
    val_main_v9_apply, val_main_v12_apply, val_main_v10_apply, val_main_v14_apply, val_main_v17_apply,
    val_main_cst_2_apply, val_main_cst_3_apply, idx_row, idx_col, sq_at, sq_at, gram_at]
  rfl

/-- The 0/1 mask of adj > 0 at an index. -/
theorem mask_at (i : S8192x8192.Idx) : val_main_v21 (F := Ideal) a2 i = Cert.Spec.maskR (a2 i) := by
  rw [val_main_v21_apply, val_main_v20_apply, val_main_v19_apply, val_main_cst_4_apply]
  rfl

/-- The node term's sum: from zero, d*d over every entry. -/
theorem node_sum_at (i : S_.Idx) :
    val_main_v2 (F := Ideal) a0 a1 i
      = Cert.Spec.cZero + ∑ j : S8192x128.Idx, (a0 j - a1 j) * (a0 j - a1 j) := by
  rw [val_main_v2_apply]
  rfl

/-- The numerator: the masked pair terms summed over all (r, c). -/
theorem num_at (i : S_.Idx) : val_main_v23 (F := Ideal) a0 a1 a2 i = Cert.Spec.numR a0 a1 a2 := by
  rw [val_main_v23_apply, val_main_cst_5_apply, Ideal.ofBits_def, Ideal.ofBits_zero_f32, zero_add, sum_idx2]
  refine Finset.sum_congr rfl fun r _ => Finset.sum_congr rfl fun c _ => ?_
  rw [val_main_v22_apply, Ideal.mulf_def, mask_at, pair_at]

/-- The denominator's sum: adj over all (r, c). -/
theorem den_at (i : S_.Idx) : val_main_v24 (F := Ideal) a2 i = Cert.Spec.denR a2 := by
  rw [val_main_v24_apply, val_main_cst_6_apply, Ideal.ofBits_def, Ideal.ofBits_zero_f32, zero_add, sum_idx2]
  rfl

/-! ## The result -/

/-- The reference's result is the specification's result of the node term, the reference's numerator and the
    reference's denominator. -/
theorem ref_value (a0 a1 : FVec Ideal S8192x128 .f32) (a2 : FVec Ideal S8192x8192 .f32) :
    val_main_v28 (F := Ideal) a0 a1 a2
      = fun _ => Cert.Spec.result (Cert.Spec.node a0 a1) (Cert.Spec.numR a0 a1 a2) (Cert.Spec.denR a2) := by
  funext i
  rw [val_main_v28_apply, val_main_v27_apply, val_main_v26_apply, val_main_v3_apply, val_main_v25_apply,
    node_sum_at, num_at, den_at]
  rfl

/-! ## The run -/

/-- Every weakly fair execution of the reference terminates with its result at the specification's result of the
    node term, the reference's numerator and the reference's denominator of the arguments' launch contents, and
    with the three arguments unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v28)
          = (fun _ => Cert.Spec.result
              (Cert.Spec.node (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1)))
              (Cert.Spec.numR (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1))
                (m' ((c.tc : Thread Cert.ReferenceIdeal.nD Cert.ReferenceIdeal.τ).loc Cert.ReferenceIdeal.main_arg2)))
              (Cert.Spec.denR (m' ((c.tc : Thread Cert.ReferenceIdeal.nD Cert.ReferenceIdeal.τ).loc Cert.ReferenceIdeal.main_arg2))))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) :=
  (θ_run _ _ _).mono
    (fun _ h c => ⟨(h c).1.trans ((val_main_v28_eq _ _ _).trans (ref_value _ _ _)), (h c).2⟩)
    (Cert.ReferenceIdeal.Value.run (F := Ideal) m' ρ')

end Cert.RefSide

end
-- ==== Proof.lean ====
/-
  The certificate of the graph-distillation loss kernel against its reference.

  With d = s - t (two node arrays of 8192 rows and 128 features) and an adjacency array of 8192 x 8192 entries, both
  programs return

      1 * ( sum(d * d) / 1048576  +  N / (D + eps) ),    D = sum(adj),
      N = the sum over the pairs (r, c) with adj(r, c) > 0 of the mean over the features of (d r - d c)^2 .

  The reference computes the pair term as ((|d r|^2 + |d c|^2) - 2 <d r, d c>) / 128 and masks by multiplication.
  The kernel scales d by 1/8 first, forms (h r + h c) - <d r / 8, d c / 8> with h = 1/2 |d / 8|^2 on 1024 x 1024 tiles,
  selects where adj > 0, sums each tile, accumulates the tiles of one row of tiles in two scalars carried from grid
  point to grid point, writes them out at the row's last tile, and the host adds the eight partial sums. Over the
  extended reals the two agree whenever s and t are real-valued — which the precondition says — because then
  1/2 (a/8)^2 + 1/2 (b/8)^2 - (a/8)(b/8) = (a^2 + b^2 - 2ab) / 128 feature by feature, a mask by multiplication
  is a selection (0 * x = 0 for every extended real x), and a finite sum may be taken tile by tile. The
  denominators agree with no hypothesis at all.

  The three frames: the reference's is its generated run; the two kernels' (the printed one at the bit patterns and
  its idealization at the extended reals) are one hand-written frame proof, generic in the float instance, whose
  launch splits the share of the one array two windows read (KLaunch, KILaunch). The idealization rewrote nothing,
  so the preservation claim is trivial.
-/
import proofs.«117120_j68917045231788_2_alg».proof.Defs
import proofs.«117120_j68917045231788_2_alg».proof.Proof.Gen.Kernel
import proofs.«117120_j68917045231788_2_alg».proof.Proof.Gen.KernelIdeal
import proofs.«117120_j68917045231788_2_alg».proof.Proof.Gen.ReferenceIdeal
import proofs.«117120_j68917045231788_2_alg».proof.Proof.Gen.Pre_finite_inputs
import proofs.«117120_j68917045231788_2_alg».proof.Proof.KLaunch
import proofs.«117120_j68917045231788_2_alg».proof.Proof.KIResult
import proofs.«117120_j68917045231788_2_alg».proof.Proof.RefSide
import Idealize.ShloMosaic.Adequacy
import Idealize.ShloMosaic.Init

noncomputable section

namespace Cert.Proof

open Idealize.ShloMosaic Idealize.ShloMosaic.TcCoe Idealize.SL.Sem

/-- The printed kernel, at the bit patterns, runs to the end and leaves its three argument arrays as launched. -/
theorem frame_k : Cert.frame_Kernel := fun m ρ _ => Cert.Kernel.Hand.frame (F := Bits) m ρ

/-- So does its idealization, at the extended reals. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.RefSide.ref_run m ρ)

/-- The idealization rewrote no operation. -/
theorem preserves : Cert.preserves_Kernel_KernelIdeal := trivial

/-- From memories agreeing on the arguments both idealized programs end with the same scalar: the kernel's run ends at
    the loss in the reference's spelling of the arguments' contents (`kernel_run`, which uses the precondition: the
    node arrays are real-valued), and so does the reference's (`ref_run`), of arguments that agree. -/
theorem algebraic : Cert.algebraic_KernelIdeal_ReferenceIdeal := by
  intro m ρ m' ρ' hpre hagree
  refine ⟨_, Cert.KernelIdeal.Result.kernel_run m ρ hpre, ?_⟩
  refine (θ_run Cert.ReferenceIdeal.defs _ _).mono (fun _ h c => ⟨(h c).1.trans ?_, (h c).2⟩) (Cert.RefSide.ref_run m' ρ')
  rw [(hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
